-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) →
    ∃ (v0 : (c : Dev Cert.KernelIdeal.nD) → Buf (Elt Ideal) ((c.tc : Thread Cert.KernelIdeal.nD Cert.KernelIdeal.τ).loc Cert.KernelIdeal.main_v63)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v63) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v90) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x256 : Shape := ⟨2, ![100000, 256]⟩
abbrev S2x1600000 : Shape := ⟨2, ![2, 1600000]⟩
abbrev S256x128 : Shape := ⟨2, ![256, 128]⟩
abbrev S128 : Shape := ⟨1, ![128]⟩
abbrev S128x1 : Shape := ⟨2, ![128, 1]⟩
abbrev S1 : Shape := ⟨1, ![1]⟩
abbrev S_ : Shape := ⟨0, ![]⟩

class Facts : Prop where
  bcast_S_S100000x256 : S_.BroadcastsInDim S100000x256 (![] : Fin 0 → Fin S100000x256.rank)
  reducesTo_S100000x256_S_d0_1 : S100000x256.ReducesTo [0, 1] S_
  h_S_ : 0 < S_.numel
  bcast_S_S256x128 : S_.BroadcastsInDim S256x128 (![] : Fin 0 → Fin S256x128.rank)
  reducesTo_S256x128_S_d0_1 : S256x128.ReducesTo [0, 1] S_
  bcast_S_S128 : S_.BroadcastsInDim S128 (![] : Fin 0 → Fin S128.rank)
  reducesTo_S128_S_d0 : S128.ReducesTo [0] S_
  bcast_S_S128x1 : S_.BroadcastsInDim S128x1 (![] : Fin 0 → Fin S128x1.rank)
  reducesTo_S128x1_S_d0_1 : S128x1.ReducesTo [0, 1] S_
  bcast_S_S1 : S_.BroadcastsInDim S1 (![] : Fin 0 → Fin S1.rank)
  reducesTo_S1_S_d0 : S1.ReducesTo [0] S_

variable [Facts]

def fn_part1 {F : FTy → Type} [FloatOps F] (main_arg5 : FVec F S1 .f32) (main_v13 : IVec S_ 1) (main_v16 : IVec S128x1 1) : IVec S_ 1 :=
  let main_c_5 : IVec S_ 1 := constantI S_ 1 1#1
  let main_v17 : IVec S_ 1 := (fun x v => Host.reduce IntOp.andi x v reducesTo_S128x1_S_d0_1 h_S_) main_v16 main_c_5
  let main_v18 : IVec S_ 1 := andi main_v13 main_v17
  let main_v19 : FVec F S1 .f32 := Host.absf main_arg5
  let main_cst_6 : FVec F S_ .f32 := constant S_ .f32 0x7F800000#32
  let main_v20 : FVec F S1 .f32 := broadcastInDim S1 ![] bcast_S_S1 main_cst_6
  let main_v21 : IVec S1 1 := cmpf .olt main_v19 main_v20
  let main_c_7 : IVec S_ 1 := constantI S_ 1 1#1
  let main_v22 : IVec S_ 1 := (fun x v => Host.reduce IntOp.andi x v reducesTo_S1_S_d0 h_S_) main_v21 main_c_7
  let main_v23 : IVec S_ 1 := andi main_v18 main_v22
  main_v23

def fn {F : FTy → Type} [FloatOps F] (main_arg0 : FVec F S100000x256 .f32) (main_arg1 : IVec S2x1600000 32) (main_arg2 : FVec F S256x128 .f32) (main_arg3 : FVec F S128 .f32) (main_arg4 : FVec F S128x1 .f32) (main_arg5 : FVec F S1 .f32) : IVec S_ 1 :=
  let main_v0 : FVec F S100000x256 .f32 := Host.absf main_arg0
  let main_cst : FVec F S_ .f32 := constant S_ .f32 0x7F800000#32
  let main_v1 : FVec F S100000x256 .f32 := broadcastInDim S100000x256 ![] bcast_S_S100000x256 main_cst
  let main_v2 : IVec S100000x256 1 := cmpf .olt main_v0 main_v1
  let main_c : IVec S_ 1 := constantI S_ 1 1#1
  let main_v3 : IVec S_ 1 := (fun x v => Host.reduce IntOp.andi x v reducesTo_S100000x256_S_d0_1 h_S_) main_v2 main_c
  let main_v4 : FVec F S256x128 .f32 := Host.absf main_arg2
  let main_cst_0 : FVec F S_ .f32 := constant S_ .f32 0x7F800000#32
  let main_v5 : FVec F S256x128 .f32 := broadcastInDim S256x128 ![] bcast_S_S256x128 main_cst_0
  let main_v6 : IVec S256x128 1 := cmpf .olt main_v4 main_v5
  let main_c_1 : IVec S_ 1 := constantI S_ 1 1#1
  let main_v7 : IVec S_ 1 := (fun x v => Host.reduce IntOp.andi x v reducesTo_S256x128_S_d0_1 h_S_) main_v6 main_c_1
  let main_v8 : IVec S_ 1 := andi main_v3 main_v7
  let main_v9 : FVec F S128 .f32 := Host.absf main_arg3
  let main_cst_2 : FVec F S_ .f32 := constant S_ .f32 0x7F800000#32
  let main_v10 : FVec F S128 .f32 := broadcastInDim S128 ![] bcast_S_S128 main_cst_2
  let main_v11 : IVec S128 1 := cmpf .olt main_v9 main_v10
  let main_c_3 : IVec S_ 1 := constantI S_ 1 1#1
  let main_v12 : IVec S_ 1 := (fun x v => Host.reduce IntOp.andi x v reducesTo_S128_S_d0 h_S_) main_v11 main_c_3
  let main_v13 : IVec S_ 1 := andi main_v8 main_v12
  let main_v14 : FVec F S128x1 .f32 := Host.absf main_arg4
  let main_cst_4 : FVec F S_ .f32 := constant S_ .f32 0x7F800000#32
  let main_v15 : FVec F S128x1 .f32 := broadcastInDim S128x1 ![] bcast_S_S128x1 main_cst_4
  let main_v16 : IVec S128x1 1 := cmpf .olt main_v14 main_v15
  fn_part1 (F := F) main_arg5 main_v13 main_v16
-- ==== Kernel.lean ====
abbrev S100000x256 : Shape := ⟨2, ![100000, 256]⟩
abbrev S2x1600000 : Shape := ⟨2, ![2, 1600000]⟩
abbrev S256x128 : Shape := ⟨2, ![256, 128]⟩
abbrev S128 : Shape := ⟨1, ![128]⟩
abbrev S128x1 : Shape := ⟨2, ![128, 1]⟩
abbrev S1 : Shape := ⟨1, ![1]⟩
abbrev S1x1600000 : Shape := ⟨2, ![1, 1600000]⟩
abbrev S1600000 : Shape := ⟨1, ![1600000]⟩
abbrev S100000 : Shape := ⟨1, ![100000]⟩
abbrev S1700000 : Shape := ⟨1, ![1700000]⟩
abbrev S_ : Shape := ⟨0, ![]⟩
abbrev S1700000x1 : Shape := ⟨2, ![1700000, 1]⟩
abbrev S100000x128 : Shape := ⟨2, ![100000, 128]⟩
abbrev S5000x256 : Shape := ⟨2, ![5000, 256]⟩
abbrev S5000x128 : Shape := ⟨2, ![5000, 128]⟩
abbrev S1700000x128 : Shape := ⟨2, ![1700000, 128]⟩
abbrev S1x128 : Shape := ⟨2, ![1, 128]⟩
abbrev S100000x1 : Shape := ⟨2, ![100000, 1]⟩
abbrev S10000x128 : Shape := ⟨2, ![10000, 128]⟩
abbrev S10000x1 : Shape := ⟨2, ![10000, 1]⟩
abbrev S1x1 : Shape := ⟨2, ![1, 1]⟩

abbrev nBuf : Space → Nat
  | .hbm => 86
  | .vmem => 10
  | .smem => 0
  | _ => 0

abbrev bufTy : (tb : Table) → Fin (tcTables nBuf tb) → BufTy
  | .hbm, ⟨0, _⟩ => ⟨S100000x256, .f32⟩
  | .hbm, ⟨1, _⟩ => ⟨S2x1600000, .i32⟩
  | .hbm, ⟨2, _⟩ => ⟨S256x128, .f32⟩
  | .hbm, ⟨3, _⟩ => ⟨S128, .f32⟩
  | .hbm, ⟨4, _⟩ => ⟨S128x1, .f32⟩
  | .hbm, ⟨5, _⟩ => ⟨S1, .f32⟩
  | .hbm, ⟨6, _⟩ => ⟨S1x1600000, .i32⟩
  | .hbm, ⟨7, _⟩ => ⟨S1600000, .i32⟩
  | .hbm, ⟨8, _⟩ => ⟨S1x1600000, .i32⟩
  | .hbm, ⟨9, _⟩ => ⟨S1600000, .i32⟩
  | .hbm, ⟨10, _⟩ => ⟨S100000, .i32⟩
  | .hbm, ⟨11, _⟩ => ⟨S1700000, .i32⟩
  | .hbm, ⟨12, _⟩ => ⟨S1700000, .i32⟩
  | .hbm, ⟨13, _⟩ => ⟨S_, .f32⟩
  | .hbm, ⟨14, _⟩ => ⟨S1700000, .f32⟩
  | .hbm, ⟨15, _⟩ => ⟨S_, .f32⟩
  | .hbm, ⟨16, _⟩ => ⟨S100000, .f32⟩
  | .hbm, ⟨17, _⟩ => ⟨S1700000x1, .i32⟩
  | .hbm, ⟨18, _⟩ => ⟨S100000, .f32⟩
  | .hbm, ⟨19, _⟩ => ⟨S_, .f32⟩
  | .hbm, ⟨20, _⟩ => ⟨S100000, .f32⟩
  | .hbm, ⟨21, _⟩ => ⟨S100000, .i1⟩
  | .hbm, ⟨22, _⟩ => ⟨S100000, .f32⟩
  | .hbm, ⟨23, _⟩ => ⟨S_, .f32⟩
  | .hbm, ⟨24, _⟩ => ⟨S_, .f32⟩
  | .hbm, ⟨25, _⟩ => ⟨S100000, .f32⟩
  | .hbm, ⟨26, _⟩ => ⟨S100000, .f32⟩
  | .hbm, ⟨27, _⟩ => ⟨S_, .i32⟩
  | .hbm, ⟨28, _⟩ => ⟨S1700000, .i32⟩
  | .hbm, ⟨29, _⟩ => ⟨S1700000, .i1⟩
  | .hbm, ⟨30, _⟩ => ⟨S_, .i32⟩
  | .hbm, ⟨31, _⟩ => ⟨S1700000, .i32⟩
  | .hbm, ⟨32, _⟩ => ⟨S1700000, .i32⟩
  | .hbm, ⟨33, _⟩ => ⟨S1700000, .i32⟩
  | .hbm, ⟨34, _⟩ => ⟨S1700000x1, .i32⟩
  | .hbm, ⟨35, _⟩ => ⟨S1700000, .f32⟩
  | .hbm, ⟨36, _⟩ => ⟨S_, .i32⟩
  | .hbm, ⟨37, _⟩ => ⟨S1700000, .i32⟩
  | .hbm, ⟨38, _⟩ => ⟨S1700000, .i1⟩
  | .hbm, ⟨39, _⟩ => ⟨S_, .i32⟩
  | .hbm, ⟨40, _⟩ => ⟨S1700000, .i32⟩
  | .hbm, ⟨41, _⟩ => ⟨S1700000, .i32⟩
  | .hbm, ⟨42, _⟩ => ⟨S1700000, .i32⟩
  | .hbm, ⟨43, _⟩ => ⟨S1700000x1, .i32⟩
  | .hbm, ⟨44, _⟩ => ⟨S1700000, .f32⟩
  | .hbm, ⟨45, _⟩ => ⟨S1700000, .f32⟩
  | .hbm, ⟨46, _⟩ => ⟨S100000x128, .f32⟩
  | .hbm, ⟨47, _⟩ => ⟨S1700000x1, .f32⟩
  | .hbm, ⟨48, _⟩ => ⟨S_, .i32⟩
  | .hbm, ⟨49, _⟩ => ⟨S1700000, .i32⟩
  | .hbm, ⟨50, _⟩ => ⟨S1700000, .i1⟩
  | .hbm, ⟨51, _⟩ => ⟨S_, .i32⟩
  | .hbm, ⟨52, _⟩ => ⟨S1700000, .i32⟩
  | .hbm, ⟨53, _⟩ => ⟨S1700000, .i32⟩
  | .hbm, ⟨54, _⟩ => ⟨S1700000, .i32⟩
  | .hbm, ⟨55, _⟩ => ⟨S1700000x1, .i32⟩
  | .hbm, ⟨56, _⟩ => ⟨S1700000x128, .f32⟩
  | .hbm, ⟨57, _⟩ => ⟨S1700000x128, .f32⟩
  | .hbm, ⟨58, _⟩ => ⟨S1700000x128, .f32⟩
  | .hbm, ⟨59, _⟩ => ⟨S_, .f32⟩
  | .hbm, ⟨60, _⟩ => ⟨S100000x128, .f32⟩
  | .hbm, ⟨61, _⟩ => ⟨S1700000x1, .i32⟩
  | .hbm, ⟨62, _⟩ => ⟨S100000x128, .f32⟩
  | .hbm, ⟨63, _⟩ => ⟨S1x128, .f32⟩
  | .hbm, ⟨64, _⟩ => ⟨S100000x128, .f32⟩
  | .hbm, ⟨65, _⟩ => ⟨S100000x128, .f32⟩
  | .hbm, ⟨66, _⟩ => ⟨S100000x1, .f32⟩
  | .hbm, ⟨67, _⟩ => ⟨S1700000x1, .f32⟩
  | .hbm, ⟨68, _⟩ => ⟨S_, .i32⟩
  | .hbm, ⟨69, _⟩ => ⟨S1700000, .i32⟩
  | .hbm, ⟨70, _⟩ => ⟨S1700000, .i1⟩
  | .hbm, ⟨71, _⟩ => ⟨S_, .i32⟩
  | .hbm, ⟨72, _⟩ => ⟨S1700000, .i32⟩
  | .hbm, ⟨73, _⟩ => ⟨S1700000, .i32⟩
  | .hbm, ⟨74, _⟩ => ⟨S1700000, .i32⟩
  | .hbm, ⟨75, _⟩ => ⟨S1700000x1, .i32⟩
  | .hbm, ⟨76, _⟩ => ⟨S1700000x1, .f32⟩
  | .hbm, ⟨77, _⟩ => ⟨S1700000x1, .f32⟩
  | .hbm, ⟨78, _⟩ => ⟨S_, .f32⟩
  | .hbm, ⟨79, _⟩ => ⟨S100000x1, .f32⟩
  | .hbm, ⟨80, _⟩ => ⟨S1700000x1, .i32⟩
  | .hbm, ⟨81, _⟩ => ⟨S100000x1, .f32⟩
  | .hbm, ⟨82, _⟩ => ⟨S1x1, .f32⟩
  | .hbm, ⟨83, _⟩ => ⟨S100000x1, .f32⟩
  | .hbm, ⟨84, _⟩ => ⟨S100000x1, .f32⟩
  | .hbm, ⟨85, _⟩ => ⟨S100000, .f32⟩
  | .local _ .vmem, ⟨0, _⟩ => ⟨S5000x256, .f32⟩
  | .local _ .vmem, ⟨1, _⟩ => ⟨S5000x256, .f32⟩
  | .local _ .vmem, ⟨2, _⟩ => ⟨S256x128, .f32⟩
  | .local _ .vmem, ⟨3, _⟩ => ⟨S5000x128, .f32⟩
  | .local _ .vmem, ⟨4, _⟩ => ⟨S5000x128, .f32⟩
  | .local _ .vmem, ⟨5, _⟩ => ⟨S10000x128, .f32⟩
  | .local _ .vmem, ⟨6, _⟩ => ⟨S10000x128, .f32⟩
  | .local _ .vmem, ⟨7, _⟩ => ⟨S128x1, .f32⟩
  | .local _ .vmem, ⟨8, _⟩ => ⟨S10000x1, .f32⟩
  | .local _ .vmem, ⟨9, _⟩ => ⟨S10000x1, .f32⟩
  | _, _ => ⟨S100000x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_cst : Ref sig .tc := ⟨.hbm, 13, rfl⟩
abbrev main_v7 : Ref sig .tc := ⟨.hbm, 14, rfl⟩
abbrev main_cst_0 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_1 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_cst_2 : Ref sig .tc := ⟨.hbm, 23, rfl⟩
abbrev main_call0_v0 : Ref sig .tc := ⟨.hbm, 24, rfl⟩
abbrev main_call0_v1 : Ref sig .tc := ⟨.hbm, 25, rfl⟩
abbrev main_v14 : Ref sig .tc := ⟨.hbm, 26, rfl⟩
abbrev main_c : Ref sig .tc := ⟨.hbm, 27, rfl⟩
abbrev main_v15 : Ref sig .tc := ⟨.hbm, 28, rfl⟩
abbrev main_v16 : Ref sig .tc := ⟨.hbm, 29, rfl⟩
abbrev main_c_3 : Ref sig .tc := ⟨.hbm, 30, rfl⟩
abbrev main_v17 : Ref sig .tc := ⟨.hbm, 31, rfl⟩
abbrev main_v18 : Ref sig .tc := ⟨.hbm, 32, rfl⟩
abbrev main_v19 : Ref sig .tc := ⟨.hbm, 33, rfl⟩
abbrev main_v20 : Ref sig .tc := ⟨.hbm, 34, rfl⟩
abbrev main_v21 : Ref sig .tc := ⟨.hbm, 35, rfl⟩
abbrev main_c_4 : Ref sig .tc := ⟨.hbm, 36, rfl⟩
abbrev main_v22 : Ref sig .tc := ⟨.hbm, 37, rfl⟩
abbrev main_v23 : Ref sig .tc := ⟨.hbm, 38, rfl⟩
abbrev main_c_5 : Ref sig .tc := ⟨.hbm, 39, rfl⟩
abbrev main_v24 : Ref sig .tc := ⟨.hbm, 40, rfl⟩
abbrev main_v25 : Ref sig .tc := ⟨.hbm, 41, rfl⟩
abbrev main_v26 : Ref sig .tc := ⟨.hbm, 42, rfl⟩
abbrev main_v27 : Ref sig .tc := ⟨.hbm, 43, rfl⟩
abbrev main_v28 : Ref sig .tc := ⟨.hbm, 44, rfl⟩
abbrev main_v29 : Ref sig .tc := ⟨.hbm, 45, rfl⟩
abbrev main_v30 : Ref sig .tc := ⟨.hbm, 46, rfl⟩
abbrev main_v31 : Ref sig .tc := ⟨.hbm, 47, rfl⟩
abbrev main_c_6 : Ref sig .tc := ⟨.hbm, 48, rfl⟩
abbrev main_v32 : Ref sig .tc := ⟨.hbm, 49, rfl⟩
abbrev main_v33 : Ref sig .tc := ⟨.hbm, 50, rfl⟩
abbrev main_c_7 : Ref sig .tc := ⟨.hbm, 51, rfl⟩
abbrev main_v34 : Ref sig .tc := ⟨.hbm, 52, rfl⟩
abbrev main_v35 : Ref sig .tc := ⟨.hbm, 53, rfl⟩
abbrev main_v36 : Ref sig .tc := ⟨.hbm, 54, rfl⟩
abbrev main_v37 : Ref sig .tc := ⟨.hbm, 55, rfl⟩
abbrev main_v38 : Ref sig .tc := ⟨.hbm, 56, rfl⟩
abbrev main_v39 : Ref sig .tc := ⟨.hbm, 57, rfl⟩
abbrev main_v40 : Ref sig .tc := ⟨.hbm, 58, rfl⟩
abbrev main_cst_8 : Ref sig .tc := ⟨.hbm, 59, rfl⟩
abbrev main_v41 : Ref sig .tc := ⟨.hbm, 60, rfl⟩
abbrev main_v42 : Ref sig .tc := ⟨.hbm, 61, rfl⟩
abbrev main_v43 : Ref sig .tc := ⟨.hbm, 62, rfl⟩
abbrev main_v44 : Ref sig .tc := ⟨.hbm, 63, rfl⟩
abbrev main_v45 : Ref sig .tc := ⟨.hbm, 64, rfl⟩
abbrev main_v46 : Ref sig .tc := ⟨.hbm, 65, rfl⟩
abbrev main_v47 : Ref sig .tc := ⟨.hbm, 66, rfl⟩
abbrev main_v48 : Ref sig .tc := ⟨.hbm, 67, rfl⟩
abbrev main_c_9 : Ref sig .tc := ⟨.hbm, 68, rfl⟩
abbrev main_v49 : Ref sig .tc := ⟨.hbm, 69, rfl⟩
abbrev main_v50 : Ref sig .tc := ⟨.hbm, 70, rfl⟩
abbrev main_c_10 : Ref sig .tc := ⟨.hbm, 71, rfl⟩
abbrev main_v51 : Ref sig .tc := ⟨.hbm, 72, rfl⟩
abbrev main_v52 : Ref sig .tc := ⟨.hbm, 73, rfl⟩
abbrev main_v53 : Ref sig .tc := ⟨.hbm, 74, rfl⟩
abbrev main_v54 : Ref sig .tc := ⟨.hbm, 75, rfl⟩
abbrev main_v55 : Ref sig .tc := ⟨.hbm, 76, rfl⟩
abbrev main_v56 : Ref sig .tc := ⟨.hbm, 77, rfl⟩
abbrev main_cst_11 : Ref sig .tc := ⟨.hbm, 78, rfl⟩
abbrev main_v57 : Ref sig .tc := ⟨.hbm, 79, rfl⟩
abbrev main_v58 : Ref sig .tc := ⟨.hbm, 80, rfl⟩
abbrev main_v59 : Ref sig .tc := ⟨.hbm, 81, rfl⟩
abbrev main_v60 : Ref sig .tc := ⟨.hbm, 82, rfl⟩
abbrev main_v61 : Ref sig .tc := ⟨.hbm, 83, rfl⟩
abbrev main_v62 : Ref sig .tc := ⟨.hbm, 84, rfl⟩
abbrev main_v63 : Ref sig .tc := ⟨.hbm, 85, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc1_stg0_0 : Ref sig .tc := ⟨.vmem, 5, rfl⟩
abbrev cc1_stg0_1 : Ref sig .tc := ⟨.vmem, 6, rfl⟩
abbrev cc1_stg1_0 : Ref sig .tc := ⟨.vmem, 7, rfl⟩
abbrev cc1_stg2_0 : Ref sig .tc := ⟨.vmem, 8, rfl⟩
abbrev cc1_stg2_1 : Ref sig .tc := ⟨.vmem, 9, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc1_sem0_0 : DmaSem sig := 5
abbrev cc1_sem0_1 : DmaSem sig := 6
abbrev cc1_sem1_0 : DmaSem sig := 7
abbrev cc1_sem2_0 : DmaSem sig := 8
abbrev cc1_sem2_1 : DmaSem sig := 9

abbrev nD : Nat := 1
abbrev τ : Topo := Topo.v7x

variable {F : FTy → Type} [FloatOps F]

abbrev grid0 : Pipeline.Grid := ⟨1, ![20], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S5000x256 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S256x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S5000x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev grid1 : Pipeline.Grid := ⟨1, ![10], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S10000x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S128x1 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 2 → Memref sig .tc .vmem S10000x1 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

class Facts₀ : Prop where
  slices_S2x1600000_S1x1600000_0_0 : S2x1600000.Slices ![0, 0] S1x1600000
  shapeCasts_S1x1600000_S1600000 : S1x1600000.ShapeCasts S1600000
  slices_S2x1600000_S1x1600000_1_0 : S2x1600000.Slices ![1, 0] S1x1600000
  concatenates_S1600000_S100000_S1700000_d0 : Shape.Concatenates [S1600000, S100000] S1700000 0
  bcast_S_S1700000 : S_.BroadcastsInDim S1700000 (![] : Fin 0 → Fin S1700000.rank)
  bcast_S_S100000 : S_.BroadcastsInDim S100000 (![] : Fin 0 → Fin S100000.rank)
  bcast_S1700000_S1700000x1_0 : S1700000.BroadcastsInDim S1700000x1 (![0] : Fin 1 → Fin S1700000x1.rank)
  inb_S5000x256_S5000x256_0_0 : ∀ a, (![0, 0] : Fin 2 → Nat) a + S5000x256.size a ≤ S5000x256.size a
  h_S5000x256 : 0 < S5000x256.numel
  bitsLt_bf16_f32 : FTy.bits .bf16 < FTy.bits .f32
  inb_S256x128_S256x128_0_0 : ∀ a, (![0, 0] : Fin 2 → Nat) a + S256x128.size a ≤ S256x128.size a
  h_S256x128 : 0 < S256x128.numel
  inb_S5000x128_S5000x128_0_0 : ∀ a, (![0, 0] : Fin 2 → Nat) a + S5000x128.size a ≤ S5000x128.size a
  h_S5000x128 : 0 < S5000x128.numel
  bcast_S1700000x1_S1700000x128_0_1 : S1700000x1.BroadcastsInDim S1700000x128 (![0, 1] : Fin 2 → Fin S1700000x128.rank)
  bcast_S_S100000x128 : S_.BroadcastsInDim S100000x128 (![] : Fin 0 → Fin S100000x128.rank)
  bcast_S128_S1x128_1 : S128.BroadcastsInDim S1x128 (![1] : Fin 1 → Fin S1x128.rank)
  bcast_S1x128_S100000x128_0_1 : S1x128.BroadcastsInDim S100000x128 (![0, 1] : Fin 2 → Fin S100000x128.rank)
  inb_S10000x128_S10000x128_0_0 : ∀ a, (![0, 0] : Fin 2 → Nat) a + S10000x128.size a ≤ S10000x128.size a
  h_S10000x128 : 0 < S10000x128.numel
  shapeCasts_S10000x128_S10000x128 : S10000x128.ShapeCasts S10000x128
  inb_S128x1_S128x1_0_0 : ∀ a, (![0, 0] : Fin 2 → Nat) a + S128x1.size a ≤ S128x1.size a
  h_S128x1 : 0 < S128x1.numel
  inb_S10000x1_S10000x1_0_0 : ∀ a, (![0, 0] : Fin 2 → Nat) a + S10000x1.size a ≤ S10000x1.size a
  h_S10000x1 : 0 < S10000x1.numel
  bcast_S_S100000x1 : S_.BroadcastsInDim S100000x1 (![] : Fin 0 → Fin S100000x1.rank)
  bcast_S1_S1x1_1 : S1.BroadcastsInDim S1x1 (![1] : Fin 1 → Fin S1x1.rank)
  bcast_S1x1_S100000x1_0_1 : S1x1.BroadcastsInDim S100000x1 (![0, 1] : Fin 2 → Fin S100000x1.rank)
  shapeCasts_S100000x1_S100000 : S100000x1.ShapeCasts S100000
  scatter_S100000_S1700000x1_S1700000_n_0_0_1_wf : ScatterDims.WF S100000 S1700000x1 S1700000 [] [0] [0] 1
  gather_S100000_S1700000x1_S1700000_n_0_n_n_0_1_1_wf : GatherDims.WF S100000 S1700000x1 S1700000 [] [0] [] [0] [] 1 ![1]
  dot_S5000x256_S256x128_S5000x128_1_0_0_1_n_n_wf : DotDims.WF S5000x256 S256x128 S5000x128 [1] [0] [0] [1] [] []
  gather_S100000x128_S1700000x1_S1700000x128_1_0_n_n_0_1_1128_wf : GatherDims.WF S100000x128 S1700000x1 S1700000x128 [1] [0] [] [0] [] 1 ![1, 128]
  scatter_S100000x128_S1700000x1_S1700000x128_1_0_0_1_wf : ScatterDims.WF S100000x128 S1700000x1 S1700000x128 [1] [0] [0] 1
  dot_S10000x128_S128x1_S10000x1_1_0_0_1_n_n_wf : DotDims.WF S10000x128 S128x1 S10000x1 [1] [0] [0] [1] [] []
  gather_S100000x1_S1700000x1_S1700000x1_1_0_n_n_0_1_11_wf : GatherDims.WF S100000x1 S1700000x1 S1700000x1 [1] [0] [] [0] [] 1 ![1, 1]
  scatter_S100000x1_S1700000x1_S1700000x1_1_0_0_1_wf : ScatterDims.WF S100000x1 S1700000x1 S1700000x1 [1] [0] [0] 1
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S5000x256.size a ≤ S100000x256.size a
  hwx0_0 : ∀ i : grid0.Coords, EltTy.bits .f32 = 32 ∨ (Rect.block (s := S100000x256) S5000x256.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S256x128.size a ≤ S256x128.size a
  hwx0_1 : ∀ i : grid0.Coords, EltTy.bits .f32 = 32 ∨ (Rect.block (s := S256x128) S256x128.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S5000x128.size a ≤ S100000x128.size a
  hwx0_2 : ∀ i : grid0.Coords, EltTy.bits .f32 = 32 ∨ (Rect.block (s := S100000x128) S5000x128.size (cc0_transform_2 i) (hinb0_2 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S10000x128.size a ≤ S100000x128.size a
  hwx1_0 : ∀ i : grid1.Coords, EltTy.bits .f32 = 32 ∨ (Rect.block (s := S100000x128) S10000x128.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S128x1.size a ≤ S128x1.size a
  hwx1_1 : ∀ i : grid1.Coords, EltTy.bits .f32 = 32 ∨ (Rect.block (s := S128x1) S128x1.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S10000x1.size a ≤ S100000x1.size a
  hwx1_2 : ∀ i : grid1.Coords, EltTy.bits .f32 = 32 ∨ (Rect.block (s := S100000x1) S10000x1.size (cc1_transform_2 i) (hinb1_2 i)).WholeWords (EltTy.packing .f32)

variable [Facts₀]

def scatter_S100000_S1700000x1_S1700000_n_0_0_1 : ScatterDims S100000 S1700000x1 S1700000 where
  updateWindowDims := []
  insertedWindowDims := [0]
  scatterDimsToOperandDims := [0]
  indexVectorDim := 1
  wf := scatter_S100000_S1700000x1_S1700000_n_0_0_1_wf
def gather_S100000_S1700000x1_S1700000_n_0_n_n_0_1_1 : GatherDims S100000 S1700000x1 S1700000 where
  offsetDims := []
  collapsedSliceDims := [0]
  operandBatchingDims := []
  startIndicesBatchingDims := []
  startIndexMap := [0]
  indexVectorDim := 1
  sliceSizes := ![1]
  wf := gather_S100000_S1700000x1_S1700000_n_0_n_n_0_1_1_wf
def dot_S5000x256_S256x128_S5000x128_1_0_0_1_n_n : DotDims S5000x256 S256x128 S5000x128 where
  lhsContracting := [1]
  rhsContracting := [0]
  lhsNonContracting := [0]
  rhsNonContracting := [1]
  lhsBatch := []
  rhsBatch := []
  wf := dot_S5000x256_S256x128_S5000x128_1_0_0_1_n_n_wf
def gather_S100000x128_S1700000x1_S1700000x128_1_0_n_n_0_1_1128 : GatherDims S100000x128 S1700000x1 S1700000x128 where
  offsetDims := [1]
  collapsedSliceDims := [0]
  operandBatchingDims := []
  startIndicesBatchingDims := []
  startIndexMap := [0]
  indexVectorDim := 1
  sliceSizes := ![1, 128]
  wf := gather_S100000x128_S1700000x1_S1700000x128_1_0_n_n_0_1_1128_wf
def scatter_S100000x128_S1700000x1_S1700000x128_1_0_0_1 : ScatterDims S100000x128 S1700000x1 S1700000x128 where
  updateWindowDims := [1]
  insertedWindowDims := [0]
  scatterDimsToOperandDims := [0]
  indexVectorDim := 1
  wf := scatter_S100000x128_S1700000x1_S1700000x128_1_0_0_1_wf
def dot_S10000x128_S128x1_S10000x1_1_0_0_1_n_n : DotDims S10000x128 S128x1 S10000x1 where
  lhsContracting := [1]
  rhsContracting := [0]
  lhsNonContracting := [0]
  rhsNonContracting := [1]
  lhsBatch := []
  rhsBatch := []
  wf := dot_S10000x128_S128x1_S10000x1_1_0_0_1_n_n_wf
def gather_S100000x1_S1700000x1_S1700000x1_1_0_n_n_0_1_11 : GatherDims S100000x1 S1700000x1 S1700000x1 where
  offsetDims := [1]
  collapsedSliceDims := [0]
  operandBatchingDims := []
  startIndicesBatchingDims := []
  startIndexMap := [0]
  indexVectorDim := 1
  sliceSizes := ![1, 1]
  wf := gather_S100000x1_S1700000x1_S1700000x1_1_0_n_n_0_1_11_wf
def scatter_S100000x1_S1700000x1_S1700000x1_1_0_0_1 : ScatterDims S100000x1 S1700000x1 S1700000x1 where
  updateWindowDims := [1]
  insertedWindowDims := [0]
  scatterDimsToOperandDims := [0]
  indexVectorDim := 1
  wf := scatter_S100000x1_S1700000x1_S1700000x1_1_0_0_1_wf

abbrev win0_0 : Pipeline.Window sig grid0 :=
  Pipeline.Window.ofSpec (Memref.whole main_arg0) S5000x256.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg2) S256x128.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v30) S5000x128.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev win1_0 : Pipeline.Window sig grid1 :=
  Pipeline.Window.ofSpec (Memref.whole main_v46) S10000x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_arg4) S128x1.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_v47) S10000x1.size cc1_transform_2 reads1_2 true false 2 stage1_2 sem1_2
    hrank1 hreads1_2 hinb1_2 nbuf1_2 (Memref.isWhole_whole _) hwx1_2 hstage1_2

abbrev win1 : Fin 3 → Pipeline.Window sig grid1 := fun | 0 => win1_0 | 1 => win1_1 | 2 => win1_2 | ⟨_ + 3, h⟩ => absurd h (Nat.not_lt.2 (Nat.le_add_left _ _))
abbrev spec1 : Fin 3 → Pipeline.WinSpec sig grid1.rank := fun w => (win1 w).toWinSpec

class Facts : Prop extends Facts₀ where

variable [Facts]
-- ==== ReferenceIdeal.lean ====
abbrev S100000x256 : Shape := ⟨2, ![100000, 256]⟩
abbrev S2x1600000 : Shape := ⟨2, ![2, 1600000]⟩
abbrev S256x128 : Shape := ⟨2, ![256, 128]⟩
abbrev S128 : Shape := ⟨1, ![128]⟩
abbrev S128x1 : Shape := ⟨2, ![128, 1]⟩
abbrev S1 : Shape := ⟨1, ![1]⟩
abbrev S1x1600000 : Shape := ⟨2, ![1, 1600000]⟩
abbrev S1600000 : Shape := ⟨1, ![1600000]⟩
abbrev S100000x128 : Shape := ⟨2, ![100000, 128]⟩
abbrev S100000 : Shape := ⟨1, ![100000]⟩
abbrev S1700000 : Shape := ⟨1, ![1700000]⟩
abbrev S_ : Shape := ⟨0, ![]⟩
abbrev S1700000x1 : Shape := ⟨2, ![1700000, 1]⟩
abbrev S1700000x128 : Shape := ⟨2, ![1700000, 128]⟩
abbrev S1x128 : Shape := ⟨2, ![1, 128]⟩
abbrev S100000x1 : Shape := ⟨2, ![100000, 1]⟩
abbrev S1x1 : Shape := ⟨2, ![1, 1]⟩

abbrev nBuf : Space → Nat
  | .hbm => 125
  | .vmem => 0
  | .smem => 0
  | _ => 0

abbrev bufTy : (tb : Table) → Fin (tcTables nBuf tb) → BufTy
  | .hbm, ⟨0, _⟩ => ⟨S100000x256, .f32⟩
  | .hbm, ⟨1, _⟩ => ⟨S2x1600000, .i32⟩
  | .hbm, ⟨2, _⟩ => ⟨S256x128, .f32⟩
  | .hbm, ⟨3, _⟩ => ⟨S128, .f32⟩
  | .hbm, ⟨4, _⟩ => ⟨S128x1, .f32⟩
  | .hbm, ⟨5, _⟩ => ⟨S1, .f32⟩
  | .hbm, ⟨6, _⟩ => ⟨S1x1600000, .i32⟩
  | .hbm, ⟨7, _⟩ => ⟨S1600000, .i32⟩
  | .hbm, ⟨8, _⟩ => ⟨S1x1600000, .i32⟩
  | .hbm, ⟨9, _⟩ => ⟨S1600000, .i32⟩
  | .hbm, ⟨10, _⟩ => ⟨S100000x128, .f32⟩
  | .hbm, ⟨11, _⟩ => ⟨S100000, .i32⟩
  | .hbm, ⟨12, _⟩ => ⟨S1700000, .i32⟩
  | .hbm, ⟨13, _⟩ => ⟨S1700000, .i32⟩
  | .hbm, ⟨14, _⟩ => ⟨S_, .f32⟩
  | .hbm, ⟨15, _⟩ => ⟨S1700000, .f32⟩
  | .hbm, ⟨16, _⟩ => ⟨S_, .f32⟩
  | .hbm, ⟨17, _⟩ => ⟨S100000, .f32⟩
  | .hbm, ⟨18, _⟩ => ⟨S1700000x1, .i32⟩
  | .hbm, ⟨19, _⟩ => ⟨S100000, .f32⟩
  | .hbm, ⟨20, _⟩ => ⟨S_, .f32⟩
  | .hbm, ⟨21, _⟩ => ⟨S100000, .f32⟩
  | .hbm, ⟨22, _⟩ => ⟨S100000, .i1⟩
  | .hbm, ⟨23, _⟩ => ⟨S100000, .f32⟩
  | .hbm, ⟨24, _⟩ => ⟨S_, .f32⟩
  | .hbm, ⟨25, _⟩ => ⟨S_, .f32⟩
  | .hbm, ⟨26, _⟩ => ⟨S100000, .f32⟩
  | .hbm, ⟨27, _⟩ => ⟨S100000, .f32⟩
  | .hbm, ⟨28, _⟩ => ⟨S_, .i32⟩
  | .hbm, ⟨29, _⟩ => ⟨S1700000, .i32⟩
  | .hbm, ⟨30, _⟩ => ⟨S1700000, .i1⟩
  | .hbm, ⟨31, _⟩ => ⟨S_, .i32⟩
  | .hbm, ⟨32, _⟩ => ⟨S1700000, .i32⟩
  | .hbm, ⟨33, _⟩ => ⟨S1700000, .i32⟩
  | .hbm, ⟨34, _⟩ => ⟨S1700000, .i32⟩
  | .hbm, ⟨35, _⟩ => ⟨S1700000x1, .i32⟩
  | .hbm, ⟨36, _⟩ => ⟨S1700000, .f32⟩
  | .hbm, ⟨37, _⟩ => ⟨S_, .i32⟩
  | .hbm, ⟨38, _⟩ => ⟨S1700000, .i32⟩
  | .hbm, ⟨39, _⟩ => ⟨S1700000, .i1⟩
  | .hbm, ⟨40, _⟩ => ⟨S_, .i32⟩
  | .hbm, ⟨41, _⟩ => ⟨S1700000, .i32⟩
  | .hbm, ⟨42, _⟩ => ⟨S1700000, .i32⟩
  | .hbm, ⟨43, _⟩ => ⟨S1700000, .i32⟩
  | .hbm, ⟨44, _⟩ => ⟨S1700000x1, .i32⟩
  | .hbm, ⟨45, _⟩ => ⟨S1700000, .f32⟩
  | .hbm, ⟨46, _⟩ => ⟨S1700000, .f32⟩
  | .hbm, ⟨47, _⟩ => ⟨S1700000x1, .f32⟩
  | .hbm, ⟨48, _⟩ => ⟨S_, .i32⟩
  | .hbm, ⟨49, _⟩ => ⟨S1700000, .i32⟩
  | .hbm, ⟨50, _⟩ => ⟨S1700000, .i1⟩
  | .hbm, ⟨51, _⟩ => ⟨S_, .i32⟩
  | .hbm, ⟨52, _⟩ => ⟨S1700000, .i32⟩
  | .hbm, ⟨53, _⟩ => ⟨S1700000, .i32⟩
  | .hbm, ⟨54, _⟩ => ⟨S1700000, .i32⟩
  | .hbm, ⟨55, _⟩ => ⟨S1700000x1, .i32⟩
  | .hbm, ⟨56, _⟩ => ⟨S1700000x128, .f32⟩
  | .hbm, ⟨57, _⟩ => ⟨S1700000x128, .f32⟩
  | .hbm, ⟨58, _⟩ => ⟨S1700000x128, .f32⟩
  | .hbm, ⟨59, _⟩ => ⟨S_, .f32⟩
  | .hbm, ⟨60, _⟩ => ⟨S100000x128, .f32⟩
  | .hbm, ⟨61, _⟩ => ⟨S1700000x1, .i32⟩
  | .hbm, ⟨62, _⟩ => ⟨S100000x128, .f32⟩
  | .hbm, ⟨63, _⟩ => ⟨S1x128, .f32⟩
  | .hbm, ⟨64, _⟩ => ⟨S100000x128, .f32⟩
  | .hbm, ⟨65, _⟩ => ⟨S100000x128, .f32⟩
  | .hbm, ⟨66, _⟩ => ⟨S_, .f32⟩
  | .hbm, ⟨67, _⟩ => ⟨S100000x128, .f32⟩
  | .hbm, ⟨68, _⟩ => ⟨S100000x128, .f32⟩
  | .hbm, ⟨69, _⟩ => ⟨S100000x1, .f32⟩
  | .hbm, ⟨70, _⟩ => ⟨S100000, .i32⟩
  | .hbm, ⟨71, _⟩ => ⟨S1700000, .i32⟩
  | .hbm, ⟨72, _⟩ => ⟨S1700000, .i32⟩
  | .hbm, ⟨73, _⟩ => ⟨S_, .f32⟩
  | .hbm, ⟨74, _⟩ => ⟨S1700000, .f32⟩
  | .hbm, ⟨75, _⟩ => ⟨S_, .f32⟩
  | .hbm, ⟨76, _⟩ => ⟨S100000, .f32⟩
  | .hbm, ⟨77, _⟩ => ⟨S1700000x1, .i32⟩
  | .hbm, ⟨78, _⟩ => ⟨S100000, .f32⟩
  | .hbm, ⟨79, _⟩ => ⟨S_, .f32⟩
  | .hbm, ⟨80, _⟩ => ⟨S100000, .f32⟩
  | .hbm, ⟨81, _⟩ => ⟨S100000, .i1⟩
  | .hbm, ⟨82, _⟩ => ⟨S100000, .f32⟩
  | .hbm, ⟨83, _⟩ => ⟨S_, .f32⟩
  | .hbm, ⟨84, _⟩ => ⟨S_, .f32⟩
  | .hbm, ⟨85, _⟩ => ⟨S100000, .f32⟩
  | .hbm, ⟨86, _⟩ => ⟨S100000, .f32⟩
  | .hbm, ⟨87, _⟩ => ⟨S_, .i32⟩
  | .hbm, ⟨88, _⟩ => ⟨S1700000, .i32⟩
  | .hbm, ⟨89, _⟩ => ⟨S1700000, .i1⟩
  | .hbm, ⟨90, _⟩ => ⟨S_, .i32⟩
  | .hbm, ⟨91, _⟩ => ⟨S1700000, .i32⟩
  | .hbm, ⟨92, _⟩ => ⟨S1700000, .i32⟩
  | .hbm, ⟨93, _⟩ => ⟨S1700000, .i32⟩
  | .hbm, ⟨94, _⟩ => ⟨S1700000x1, .i32⟩
  | .hbm, ⟨95, _⟩ => ⟨S1700000, .f32⟩
  | .hbm, ⟨96, _⟩ => ⟨S_, .i32⟩
  | .hbm, ⟨97, _⟩ => ⟨S1700000, .i32⟩
  | .hbm, ⟨98, _⟩ => ⟨S1700000, .i1⟩
  | .hbm, ⟨99, _⟩ => ⟨S_, .i32⟩
  | .hbm, ⟨100, _⟩ => ⟨S1700000, .i32⟩
  | .hbm, ⟨101, _⟩ => ⟨S1700000, .i32⟩
  | .hbm, ⟨102, _⟩ => ⟨S1700000, .i32⟩
  | .hbm, ⟨103, _⟩ => ⟨S1700000x1, .i32⟩
  | .hbm, ⟨104, _⟩ => ⟨S1700000, .f32⟩
  | .hbm, ⟨105, _⟩ => ⟨S1700000, .f32⟩
  | .hbm, ⟨106, _⟩ => ⟨S1700000x1, .f32⟩
  | .hbm, ⟨107, _⟩ => ⟨S_, .i32⟩
  | .hbm, ⟨108, _⟩ => ⟨S1700000, .i32⟩
  | .hbm, ⟨109, _⟩ => ⟨S1700000, .i1⟩
  | .hbm, ⟨110, _⟩ => ⟨S_, .i32⟩
  | .hbm, ⟨111, _⟩ => ⟨S1700000, .i32⟩
  | .hbm, ⟨112, _⟩ => ⟨S1700000, .i32⟩
  | .hbm, ⟨113, _⟩ => ⟨S1700000, .i32⟩
  | .hbm, ⟨114, _⟩ => ⟨S1700000x1, .i32⟩
  | .hbm, ⟨115, _⟩ => ⟨S1700000x1, .f32⟩
  | .hbm, ⟨116, _⟩ => ⟨S1700000x1, .f32⟩
  | .hbm, ⟨117, _⟩ => ⟨S_, .f32⟩
  | .hbm, ⟨118, _⟩ => ⟨S100000x1, .f32⟩
  | .hbm, ⟨119, _⟩ => ⟨S1700000x1, .i32⟩
  | .hbm, ⟨120, _⟩ => ⟨S100000x1, .f32⟩
  | .hbm, ⟨121, _⟩ => ⟨S1x1, .f32⟩
  | .hbm, ⟨122, _⟩ => ⟨S100000x1, .f32⟩
  | .hbm, ⟨123, _⟩ => ⟨S100000x1, .f32⟩
  | .hbm, ⟨124, _⟩ => ⟨S100000, .f32⟩
  | _, _ => ⟨S100000x256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_cst : Ref sig .tc := ⟨.hbm, 14, rfl⟩
abbrev main_v8 : Ref sig .tc := ⟨.hbm, 15, rfl⟩
abbrev main_cst_0 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_cst_1 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_cst_2 : Ref sig .tc := ⟨.hbm, 24, rfl⟩
abbrev main_call0_v0 : Ref sig .tc := ⟨.hbm, 25, rfl⟩
abbrev main_call0_v1 : Ref sig .tc := ⟨.hbm, 26, rfl⟩
abbrev main_v15 : Ref sig .tc := ⟨.hbm, 27, rfl⟩
abbrev main_c : Ref sig .tc := ⟨.hbm, 28, rfl⟩
abbrev main_v16 : Ref sig .tc := ⟨.hbm, 29, rfl⟩
abbrev main_v17 : Ref sig .tc := ⟨.hbm, 30, rfl⟩
abbrev main_c_3 : Ref sig .tc := ⟨.hbm, 31, rfl⟩
abbrev main_v18 : Ref sig .tc := ⟨.hbm, 32, rfl⟩
abbrev main_v19 : Ref sig .tc := ⟨.hbm, 33, rfl⟩
abbrev main_v20 : Ref sig .tc := ⟨.hbm, 34, rfl⟩
abbrev main_v21 : Ref sig .tc := ⟨.hbm, 35, rfl⟩
abbrev main_v22 : Ref sig .tc := ⟨.hbm, 36, rfl⟩
abbrev main_c_4 : Ref sig .tc := ⟨.hbm, 37, rfl⟩
abbrev main_v23 : Ref sig .tc := ⟨.hbm, 38, rfl⟩
abbrev main_v24 : Ref sig .tc := ⟨.hbm, 39, rfl⟩
abbrev main_c_5 : Ref sig .tc := ⟨.hbm, 40, rfl⟩
abbrev main_v25 : Ref sig .tc := ⟨.hbm, 41, rfl⟩
abbrev main_v26 : Ref sig .tc := ⟨.hbm, 42, rfl⟩
abbrev main_v27 : Ref sig .tc := ⟨.hbm, 43, rfl⟩
abbrev main_v28 : Ref sig .tc := ⟨.hbm, 44, rfl⟩
abbrev main_v29 : Ref sig .tc := ⟨.hbm, 45, rfl⟩
abbrev main_v30 : Ref sig .tc := ⟨.hbm, 46, rfl⟩
abbrev main_v31 : Ref sig .tc := ⟨.hbm, 47, rfl⟩
abbrev main_c_6 : Ref sig .tc := ⟨.hbm, 48, rfl⟩
abbrev main_v32 : Ref sig .tc := ⟨.hbm, 49, rfl⟩
abbrev main_v33 : Ref sig .tc := ⟨.hbm, 50, rfl⟩
abbrev main_c_7 : Ref sig .tc := ⟨.hbm, 51, rfl⟩
abbrev main_v34 : Ref sig .tc := ⟨.hbm, 52, rfl⟩
abbrev main_v35 : Ref sig .tc := ⟨.hbm, 53, rfl⟩
abbrev main_v36 : Ref sig .tc := ⟨.hbm, 54, rfl⟩
abbrev main_v37 : Ref sig .tc := ⟨.hbm, 55, rfl⟩
abbrev main_v38 : Ref sig .tc := ⟨.hbm, 56, rfl⟩
abbrev main_v39 : Ref sig .tc := ⟨.hbm, 57, rfl⟩
abbrev main_v40 : Ref sig .tc := ⟨.hbm, 58, rfl⟩
abbrev main_cst_8 : Ref sig .tc := ⟨.hbm, 59, rfl⟩
abbrev main_v41 : Ref sig .tc := ⟨.hbm, 60, rfl⟩
abbrev main_v42 : Ref sig .tc := ⟨.hbm, 61, rfl⟩
abbrev main_v43 : Ref sig .tc := ⟨.hbm, 62, rfl⟩
abbrev main_v44 : Ref sig .tc := ⟨.hbm, 63, rfl⟩
abbrev main_v45 : Ref sig .tc := ⟨.hbm, 64, rfl⟩
abbrev main_v46 : Ref sig .tc := ⟨.hbm, 65, rfl⟩
abbrev main_call1_cst : Ref sig .tc := ⟨.hbm, 66, rfl⟩
abbrev main_call1_v0 : Ref sig .tc := ⟨.hbm, 67, rfl⟩
abbrev main_v47 : Ref sig .tc := ⟨.hbm, 68, rfl⟩
abbrev main_v48 : Ref sig .tc := ⟨.hbm, 69, rfl⟩
abbrev main_v49 : Ref sig .tc := ⟨.hbm, 70, rfl⟩
abbrev main_v50 : Ref sig .tc := ⟨.hbm, 71, rfl⟩
abbrev main_v51 : Ref sig .tc := ⟨.hbm, 72, rfl⟩
abbrev main_cst_9 : Ref sig .tc := ⟨.hbm, 73, rfl⟩
abbrev main_v52 : Ref sig .tc := ⟨.hbm, 74, rfl⟩
abbrev main_cst_10 : Ref sig .tc := ⟨.hbm, 75, rfl⟩
abbrev main_v53 : Ref sig .tc := ⟨.hbm, 76, rfl⟩
abbrev main_v54 : Ref sig .tc := ⟨.hbm, 77, rfl⟩
abbrev main_v55 : Ref sig .tc := ⟨.hbm, 78, rfl⟩
abbrev main_cst_11 : Ref sig .tc := ⟨.hbm, 79, rfl⟩
abbrev main_v56 : Ref sig .tc := ⟨.hbm, 80, rfl⟩
abbrev main_v57 : Ref sig .tc := ⟨.hbm, 81, rfl⟩
abbrev main_v58 : Ref sig .tc := ⟨.hbm, 82, rfl⟩
abbrev main_cst_12 : Ref sig .tc := ⟨.hbm, 83, rfl⟩
abbrev main_call2_v0 : Ref sig .tc := ⟨.hbm, 84, rfl⟩
abbrev main_call2_v1 : Ref sig .tc := ⟨.hbm, 85, rfl⟩
abbrev main_v59 : Ref sig .tc := ⟨.hbm, 86, rfl⟩
abbrev main_c_13 : Ref sig .tc := ⟨.hbm, 87, rfl⟩
abbrev main_v60 : Ref sig .tc := ⟨.hbm, 88, rfl⟩
abbrev main_v61 : Ref sig .tc := ⟨.hbm, 89, rfl⟩
abbrev main_c_14 : Ref sig .tc := ⟨.hbm, 90, rfl⟩
abbrev main_v62 : Ref sig .tc := ⟨.hbm, 91, rfl⟩
abbrev main_v63 : Ref sig .tc := ⟨.hbm, 92, rfl⟩
abbrev main_v64 : Ref sig .tc := ⟨.hbm, 93, rfl⟩
abbrev main_v65 : Ref sig .tc := ⟨.hbm, 94, rfl⟩
abbrev main_v66 : Ref sig .tc := ⟨.hbm, 95, rfl⟩
abbrev main_c_15 : Ref sig .tc := ⟨.hbm, 96, rfl⟩
abbrev main_v67 : Ref sig .tc := ⟨.hbm, 97, rfl⟩
abbrev main_v68 : Ref sig .tc := ⟨.hbm, 98, rfl⟩
abbrev main_c_16 : Ref sig .tc := ⟨.hbm, 99, rfl⟩
abbrev main_v69 : Ref sig .tc := ⟨.hbm, 100, rfl⟩
abbrev main_v70 : Ref sig .tc := ⟨.hbm, 101, rfl⟩
abbrev main_v71 : Ref sig .tc := ⟨.hbm, 102, rfl⟩
abbrev main_v72 : Ref sig .tc := ⟨.hbm, 103, rfl⟩
abbrev main_v73 : Ref sig .tc := ⟨.hbm, 104, rfl⟩
abbrev main_v74 : Ref sig .tc := ⟨.hbm, 105, rfl⟩
abbrev main_v75 : Ref sig .tc := ⟨.hbm, 106, rfl⟩
abbrev main_c_17 : Ref sig .tc := ⟨.hbm, 107, rfl⟩
abbrev main_v76 : Ref sig .tc := ⟨.hbm, 108, rfl⟩
abbrev main_v77 : Ref sig .tc := ⟨.hbm, 109, rfl⟩
abbrev main_c_18 : Ref sig .tc := ⟨.hbm, 110, rfl⟩
abbrev main_v78 : Ref sig .tc := ⟨.hbm, 111, rfl⟩
abbrev main_v79 : Ref sig .tc := ⟨.hbm, 112, rfl⟩
abbrev main_v80 : Ref sig .tc := ⟨.hbm, 113, rfl⟩
abbrev main_v81 : Ref sig .tc := ⟨.hbm, 114, rfl⟩
abbrev main_v82 : Ref sig .tc := ⟨.hbm, 115, rfl⟩
abbrev main_v83 : Ref sig .tc := ⟨.hbm, 116, rfl⟩
abbrev main_cst_19 : Ref sig .tc := ⟨.hbm, 117, rfl⟩
abbrev main_v84 : Ref sig .tc := ⟨.hbm, 118, rfl⟩
abbrev main_v85 : Ref sig .tc := ⟨.hbm, 119, rfl⟩
abbrev main_v86 : Ref sig .tc := ⟨.hbm, 120, rfl⟩
abbrev main_v87 : Ref sig .tc := ⟨.hbm, 121, rfl⟩
abbrev main_v88 : Ref sig .tc := ⟨.hbm, 122, rfl⟩
abbrev main_v89 : Ref sig .tc := ⟨.hbm, 123, rfl⟩
abbrev main_v90 : Ref sig .tc := ⟨.hbm, 124, rfl⟩

abbrev nD : Nat := 1
abbrev τ : Topo := Topo.v7x

variable {F : FTy → Type} [FloatOps F]

class Facts₀ : Prop where
  slices_S2x1600000_S1x1600000_0_0 : S2x1600000.Slices ![0, 0] S1x1600000
  shapeCasts_S1x1600000_S1600000 : S1x1600000.ShapeCasts S1600000
  slices_S2x1600000_S1x1600000_1_0 : S2x1600000.Slices ![1, 0] S1x1600000
  concatenates_S1600000_S100000_S1700000_d0 : Shape.Concatenates [S1600000, S100000] S1700000 0
  bcast_S_S1700000 : S_.BroadcastsInDim S1700000 (![] : Fin 0 → Fin S1700000.rank)
  bcast_S_S100000 : S_.BroadcastsInDim S100000 (![] : Fin 0 → Fin S100000.rank)
  bcast_S1700000_S1700000x1_0 : S1700000.BroadcastsInDim S1700000x1 (![0] : Fin 1 → Fin S1700000x1.rank)
  bcast_S1700000x1_S1700000x128_0_1 : S1700000x1.BroadcastsInDim S1700000x128 (![0, 1] : Fin 2 → Fin S1700000x128.rank)
  bcast_S_S100000x128 : S_.BroadcastsInDim S100000x128 (![] : Fin 0 → Fin S100000x128.rank)
  bcast_S128_S1x128_1 : S128.BroadcastsInDim S1x128 (![1] : Fin 1 → Fin S1x128.rank)
  bcast_S1x128_S100000x128_0_1 : S1x128.BroadcastsInDim S100000x128 (![0, 1] : Fin 2 → Fin S100000x128.rank)
  bcast_S_S100000x1 : S_.BroadcastsInDim S100000x1 (![] : Fin 0 → Fin S100000x1.rank)
  bcast_S1_S1x1_1 : S1.BroadcastsInDim S1x1 (![1] : Fin 1 → Fin S1x1.rank)
  bcast_S1x1_S100000x1_0_1 : S1x1.BroadcastsInDim S100000x1 (![0, 1] : Fin 2 → Fin S100000x1.rank)
  shapeCasts_S100000x1_S100000 : S100000x1.ShapeCasts S100000
  dot_S100000x256_S256x128_S100000x128_1_0_0_1_n_n_wf : DotDims.WF S100000x256 S256x128 S100000x128 [1] [0] [0] [1] [] []
  scatter_S100000_S1700000x1_S1700000_n_0_0_1_wf : ScatterDims.WF S100000 S1700000x1 S1700000 [] [0] [0] 1
  gather_S100000_S1700000x1_S1700000_n_0_n_n_0_1_1_wf : GatherDims.WF S100000 S1700000x1 S1700000 [] [0] [] [0] [] 1 ![1]
  gather_S100000x128_S1700000x1_S1700000x128_1_0_n_n_0_1_1128_wf : GatherDims.WF S100000x128 S1700000x1 S1700000x128 [1] [0] [] [0] [] 1 ![1, 128]
  scatter_S100000x128_S1700000x1_S1700000x128_1_0_0_1_wf : ScatterDims.WF S100000x128 S1700000x1 S1700000x128 [1] [0] [0] 1
  dot_S100000x128_S128x1_S100000x1_1_0_0_1_n_n_wf : DotDims.WF S100000x128 S128x1 S100000x1 [1] [0] [0] [1] [] []
  gather_S100000x1_S1700000x1_S1700000x1_1_0_n_n_0_1_11_wf : GatherDims.WF S100000x1 S1700000x1 S1700000x1 [1] [0] [] [0] [] 1 ![1, 1]
  scatter_S100000x1_S1700000x1_S1700000x1_1_0_0_1_wf : ScatterDims.WF S100000x1 S1700000x1 S1700000x1 [1] [0] [0] 1

variable [Facts₀]

def dot_S100000x256_S256x128_S100000x128_1_0_0_1_n_n : DotDims S100000x256 S256x128 S100000x128 where
  lhsContracting := [1]
  rhsContracting := [0]
  lhsNonContracting := [0]
  rhsNonContracting := [1]
  lhsBatch := []
  rhsBatch := []
  wf := dot_S100000x256_S256x128_S100000x128_1_0_0_1_n_n_wf
def scatter_S100000_S1700000x1_S1700000_n_0_0_1 : ScatterDims S100000 S1700000x1 S1700000 where
  updateWindowDims := []
  insertedWindowDims := [0]
  scatterDimsToOperandDims := [0]
  indexVectorDim := 1
  wf := scatter_S100000_S1700000x1_S1700000_n_0_0_1_wf
def gather_S100000_S1700000x1_S1700000_n_0_n_n_0_1_1 : GatherDims S100000 S1700000x1 S1700000 where
  offsetDims := []
  collapsedSliceDims := [0]
  operandBatchingDims := []
  startIndicesBatchingDims := []
  startIndexMap := [0]
  indexVectorDim := 1
  sliceSizes := ![1]
  wf := gather_S100000_S1700000x1_S1700000_n_0_n_n_0_1_1_wf
def gather_S100000x128_S1700000x1_S1700000x128_1_0_n_n_0_1_1128 : GatherDims S100000x128 S1700000x1 S1700000x128 where
  offsetDims := [1]
  collapsedSliceDims := [0]
  operandBatchingDims := []
  startIndicesBatchingDims := []
  startIndexMap := [0]
  indexVectorDim := 1
  sliceSizes := ![1, 128]
  wf := gather_S100000x128_S1700000x1_S1700000x128_1_0_n_n_0_1_1128_wf
def scatter_S100000x128_S1700000x1_S1700000x128_1_0_0_1 : ScatterDims S100000x128 S1700000x1 S1700000x128 where
  updateWindowDims := [1]
  insertedWindowDims := [0]
  scatterDimsToOperandDims := [0]
  indexVectorDim := 1
  wf := scatter_S100000x128_S1700000x1_S1700000x128_1_0_0_1_wf
def dot_S100000x128_S128x1_S100000x1_1_0_0_1_n_n : DotDims S100000x128 S128x1 S100000x1 where
  lhsContracting := [1]
  rhsContracting := [0]
  lhsNonContracting := [0]
  rhsNonContracting := [1]
  lhsBatch := []
  rhsBatch := []
  wf := dot_S100000x128_S128x1_S100000x1_1_0_0_1_n_n_wf
def gather_S100000x1_S1700000x1_S1700000x1_1_0_n_n_0_1_11 : GatherDims S100000x1 S1700000x1 S1700000x1 where
  offsetDims := [1]
  collapsedSliceDims := [0]
  operandBatchingDims := []
  startIndicesBatchingDims := []
  startIndexMap := [0]
  indexVectorDim := 1
  sliceSizes := ![1, 1]
  wf := gather_S100000x1_S1700000x1_S1700000x1_1_0_n_n_0_1_11_wf
def scatter_S100000x1_S1700000x1_S1700000x1_1_0_0_1 : ScatterDims S100000x1 S1700000x1 S1700000x1 where
  updateWindowDims := [1]
  insertedWindowDims := [0]
  scatterDimsToOperandDims := [0]
  indexVectorDim := 1
  wf := scatter_S100000x1_S1700000x1_S1700000x1_1_0_0_1_wf

class Facts : Prop extends Facts₀ where

variable [Facts]
-- ==== Proof.KernelRun.lean ====
/-
  The idealized kernel's run, with its result named.

  @main is seven segments: three stretches of host operations, the first product's region, a stretch, the second
  product's region, a last stretch.  The buffer contents at each segment boundary are a fold from the launch memory
  (`Gen.W0 … Gen.W7`): a host stretch applies its operations, a region replaces its arrays by what its write-backs
  leave.  Every weakly fair execution ends with every unscoped buffer at the last boundary's contents `Gen.W7`; read
  at the result buffer that is the result, read at an argument it is the argument as launched.
-/
import proofs.«168287_j60765197304392_1_alg».proof.Proof.Gen.KernelIdeal.Frame

set_option maxRecDepth 16384

noncomputable section

namespace Cert.KernelIdeal.RunValue

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- Every weakly fair execution of @main terminates, nothing faulting, with the result buffer at the last boundary's
    contents and the arguments as launched. -/
theorem run : θ_run defs (onTc (τ := τ) (main (F := F))) ⟨m, fun _ => 0, ρ⟩ (fun r => ∀ c : Dev nD,
      r.2.mem ((c.tc : Thread nD τ).loc main_v63) = W7 m ρ c (Proc.devRef .tc main_v63)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun c => by
      dsimp only [Pipeline.Seg.post, hseg, Pipeline.HostSeg.ofOps]
      iintro ⟨Hh, Hp, HO⟩
      isplitl [Hh Hp]
      · isplitl [Hh]; · iexact Hh
        iexact Hp
      iexact HO⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W7 m ρ c b)
    (hfin := fun c s' => by
      iintro ⟨⟨Hh, -⟩, HSI⟩
      unfold StableHlo.held
      imodintro
      iapply (pointsTo_read_all (Pipeline.ucRefs τ sig) (fun b => (((c : Thread nD τ)).1, b)) (W7 m ρ c) s')
      isplitl [Hh] <;> iassumption)
    (hQ := fun s h c =>
      ⟨h c _ (mem_uc main_v63 (by decide)),
       (h c _ (mem_uc main_arg0 (by decide))).trans (W7_main_arg0 m ρ c),
       (h c _ (mem_uc main_arg1 (by decide))).trans (W7_main_arg1 m ρ c),
       (h c _ (mem_uc main_arg2 (by decide))).trans (W7_main_arg2 m ρ c),
       (h c _ (mem_uc main_arg3 (by decide))).trans (W7_main_arg3 m ρ c),
       (h c _ (mem_uc main_arg4 (by decide))).trans (W7_main_arg4 m ρ c),
       (h c _ (mem_uc main_arg5 (by decide))).trans (W7_main_arg5 m ρ c)⟩)

end Cert.KernelIdeal.RunValue

end
-- ==== Proof.Chain.lean ====
/-
  The graph convolution's host side, as functions.

  A layer of the network is `Â · (X W) + b` with `Â = D^{-1/2} (A + I) D^{-1/2}`: every edge `s → d` of the graph, and a
  self-loop at every node, carries the weight `dinv s · dinv d`, where `dinv n = deg(n)^{-1/2}` for the in-degree `deg`
  counted with the self-loop (`0` where the degree is not positive); the layer's output at node `d` is the sum over the
  edges into `d` of weight × the product's row at the edge's source, plus the bias.

  Both programs compute exactly this around their matrix products, by the same host operations: the edge lists with
  the self-loops appended (`srcOf`, `dstOf`), the degree by a scatter-add of ones, `dinv` by `rsqrt` under a
  `select`, the weights by two gathers and a product (`normOf`), and the aggregation by a row gather, a product and a
  scatter-add (`aggregate128` for the hidden layer of width 128, `aggregate1` for the output layer of width 1, which
  also drops the unit axis).  They are named here once so that the two programs' values can be compared at the
  matrix products alone and this chain never has to be opened.
-/
import proofs.«168287_j60765197304392_1_alg».proof.Proof.Gen.KernelIdeal

noncomputable section

namespace Cert.KernelIdeal.Gcn

open Cert.KernelIdeal Cert.KernelIdeal.Gen Idealize.ShloMosaic

variable {F : FTy → Type} [FloatOps F]

/-- The edges' source nodes, then every node once (its self-loop). -/
def srcOf (e : (⟨S2x1600000, .i32⟩ : BufTy).Contents (Elt F)) : (⟨S1700000, .i32⟩ : BufTy).Contents (Elt F) :=
  concatenate S1700000 0 [⟨S1600000, shapeCast _ (extractStridedSlice S1x1600000 ![0, 0] e slices_S2x1600000_S1x1600000_0_0) shapeCasts_S1x1600000_S1600000⟩,
    ⟨S100000, iotaInDim S100000 32 0⟩] concatenates_S1600000_S100000_S1700000_d0

/-- The edges' destination nodes, then every node once. -/
def dstOf (e : (⟨S2x1600000, .i32⟩ : BufTy).Contents (Elt F)) : (⟨S1700000, .i32⟩ : BufTy).Contents (Elt F) :=
  concatenate S1700000 0 [⟨S1600000, shapeCast _ (extractStridedSlice S1x1600000 ![1, 0] e slices_S2x1600000_S1x1600000_1_0) shapeCasts_S1x1600000_S1600000⟩,
    ⟨S100000, iotaInDim S100000 32 0⟩] concatenates_S1600000_S100000_S1700000_d0

/-- A list of node numbers as the column of start indices a gather takes, a negative number counted from the end. -/
def wrapCol (s : (⟨S1700000, .i32⟩ : BufTy).Contents (Elt F)) : (⟨S1700000x1, .i32⟩ : BufTy).Contents (Elt F) :=
  broadcastInDim S1700000x1 ![0] bcast_S1700000_S1700000x1_0
    (select (cmpi .slt s (broadcastInDim S1700000 ![] bcast_S_S1700000 (constantI S_ 32 0#32)))
      (addi s (broadcastInDim S1700000 ![] bcast_S_S1700000 (constantI S_ 32 100000#32))) s)

/-- The in-degree of every node, self-loop included: ones scattered onto the destinations. -/
def degOf (d : (⟨S1700000, .i32⟩ : BufTy).Contents (Elt F)) : (⟨S100000, .f32⟩ : BufTy).Contents (Elt F) :=
  Host.scatterAdd scatter_S100000_S1700000x1_S1700000_n_0_0_1
    (broadcastInDim S100000 ![] bcast_S_S100000 (constant S_ .f32 0x00000000#32))
    (broadcastInDim S1700000x1 ![0] bcast_S1700000_S1700000x1_0 d)
    (broadcastInDim S1700000 ![] bcast_S_S1700000 (constant S_ .f32 0x3F800000#32))

/-- `deg^{-1/2}` where the degree is positive, `0` elsewhere. -/
def dinvOf (d : (⟨S1700000, .i32⟩ : BufTy).Contents (Elt F)) : (⟨S100000, .f32⟩ : BufTy).Contents (Elt F) :=
  select (cmpf (F := F) .ogt (degOf (F := F) d) (broadcastInDim S100000 ![] bcast_S_S100000 (constant S_ .f32 0x00000000#32)))
    (Host.rsqrt (degOf (F := F) d))
    (broadcastInDim S100000 ![] bcast_S_S100000 (id (constant S_ .f32 0x00000000#32)))

/-- The weight of every edge and self-loop: `dinv` at its source times `dinv` at its destination. -/
def normOf (s d : (⟨S1700000, .i32⟩ : BufTy).Contents (Elt F)) : (⟨S1700000, .f32⟩ : BufTy).Contents (Elt F) :=
  mulf (Host.gather gather_S100000_S1700000x1_S1700000_n_0_n_n_0_1_1 (dinvOf d) (wrapCol s))
    (Host.gather gather_S100000_S1700000x1_S1700000_n_0_n_n_0_1_1 (dinvOf d) (wrapCol d))

/-- The hidden layer's aggregation: the product's rows gathered at the sources, weighted, summed onto the
    destinations, plus the bias row. -/
def aggregate128 (xw : (⟨S100000x128, .f32⟩ : BufTy).Contents (Elt F)) (s d : (⟨S1700000, .i32⟩ : BufTy).Contents (Elt F))
    (n : (⟨S1700000, .f32⟩ : BufTy).Contents (Elt F)) (b : (⟨S128, .f32⟩ : BufTy).Contents (Elt F)) :
    (⟨S100000x128, .f32⟩ : BufTy).Contents (Elt F) :=
  addf
    (Host.scatterAdd scatter_S100000x128_S1700000x1_S1700000x128_1_0_0_1
      (broadcastInDim S100000x128 ![] bcast_S_S100000x128 (constant S_ .f32 0x00000000#32))
      (broadcastInDim S1700000x1 ![0] bcast_S1700000_S1700000x1_0 d)
      (mulf
        (broadcastInDim S1700000x128 ![0, 1] bcast_S1700000x1_S1700000x128_0_1
          (broadcastInDim S1700000x1 ![0] bcast_S1700000_S1700000x1_0 n))
        (Host.gather gather_S100000x128_S1700000x1_S1700000x128_1_0_n_n_0_1_1128 xw (wrapCol s))))
    (broadcastInDim S100000x128 ![0, 1] bcast_S1x128_S100000x128_0_1 (broadcastInDim S1x128 ![1] bcast_S128_S1x128_1 b))

/-- The output layer's aggregation, its unit axis dropped: the network's result. -/
def aggregate1 (hw : (⟨S100000x1, .f32⟩ : BufTy).Contents (Elt F)) (s d : (⟨S1700000, .i32⟩ : BufTy).Contents (Elt F))
    (n : (⟨S1700000, .f32⟩ : BufTy).Contents (Elt F)) (b : (⟨S1, .f32⟩ : BufTy).Contents (Elt F)) :
    (⟨S100000, .f32⟩ : BufTy).Contents (Elt F) :=
  shapeCast _
    (addf
      (Host.scatterAdd scatter_S100000x1_S1700000x1_S1700000x1_1_0_0_1
        (broadcastInDim S100000x1 ![] bcast_S_S100000x1 (constant S_ .f32 0x00000000#32))
        (broadcastInDim S1700000x1 ![0] bcast_S1700000_S1700000x1_0 d)
        (mulf (broadcastInDim S1700000x1 ![0] bcast_S1700000_S1700000x1_0 n)
          (Host.gather gather_S100000x1_S1700000x1_S1700000x1_1_0_n_n_0_1_11 hw (wrapCol s))))
      (broadcastInDim S100000x1 ![0, 1] bcast_S1x1_S100000x1_0_1 (broadcastInDim S1x1 ![1] bcast_S1_S1x1_1 b)))
    shapeCasts_S100000x1_S100000

end Cert.KernelIdeal.Gcn

end
-- ==== Proof.LibMatmulPlain.lean ====
/-
  A plain matrix product (`p @ v`: an `M × K` left operand, a `K × N` right operand, an `M × N` result, dimension
  numbers `<[1], [0], [0], [1], [0, 0, 1, 1], [], []>`), read at one entry over the extended reals.

  Whatever record of dimension numbers carries those six lists, the left operand is read at row `p` of the result
  index and column `k` of the contraction, the right operand at row `k` and column `q`; the contraction index is
  one coordinate, so the sum over it is a sum over `Fin K`.  Into a zero accumulator the product's entry `(p, q)`
  is therefore `∑ k, l (p, k) · r (k, q)`; into any accumulator it is the accumulator's entry plus that sum.
-/
import Idealize.ShloMosaic.PureOps.Ideal
import Idealize.ShloMosaic.PureOps.Ideal.Laws
import Idealize.ShloMosaic.Lib.ValueIdx

noncomputable section

namespace Idealize.ShloMosaic.MatmulPlain

open Idealize.ShloMosaic Idealize.ShloMosaic.ValueIdx
open scoped BigOperators

variable {M N K : Nat}

/-- The six lists of dimension numbers of `p @ v`. -/
structure IsPlain (D : DotDims ⟨2, ![M, K]⟩ ⟨2, ![K, N]⟩ ⟨2, ![M, N]⟩) : Prop where
  lc : D.lhsContracting = [1]
  rc : D.rhsContracting = [0]
  ln : D.lhsNonContracting = [0]
  rn : D.rhsNonContracting = [1]
  lb : D.lhsBatch = []
  rb : D.rhsBatch = []

variable {D : DotDims ⟨2, ![M, K]⟩ ⟨2, ![K, N]⟩ ⟨2, ![M, N]⟩}

theorem IsPlain.rank_contr (h : IsPlain D) : D.contr.rank = 1 := by
  rw [D.rank_contr, h.lc]; rfl

theorem IsPlain.size_contr (h : IsPlain D) : D.contr.size ⟨0, by rw [h.rank_contr]; exact Nat.one_pos⟩ = K := by
  have e := D.size_contr 0 (by rw [h.lc]; exact Nat.one_pos)
  rw [e]
  simp only [h.lc]
  rfl

/-- The left operand's row is the result's row. -/
theorem IsPlain.lhs_row (h : IsPlain D) (j : (⟨2, ![M, N]⟩ : Shape).Idx) (k : D.contr.Idx) :
    (D.lhsIdx j k 0).val = (j 0).val := by
  have hb : (0 : Fin (⟨2, ![M, K]⟩ : Shape).rank) ∉ D.lhsBatch := by rw [h.lb]; exact List.not_mem_nil
  have hn : (0 : Fin (⟨2, ![M, K]⟩ : Shape).rank) ∈ D.lhsNonContracting := by rw [h.ln]; exact List.mem_singleton.mpr rfl
  have key : ∀ (a b : Nat) (ha : a < 2) (hb : b < 2), a = b → (j ⟨a, ha⟩).val = (j ⟨b, hb⟩).val :=
    fun a b ha hb e => by subst e; rfl
  unfold DotDims.lhsIdx
  rw [dif_neg hb, dif_pos hn]
  simp only [Fin.val_cast]
  exact key _ _ _ _ (by simp [h.lb, h.ln])

/-- The right operand's column is the result's column. -/
theorem IsPlain.rhs_col (h : IsPlain D) (j : (⟨2, ![M, N]⟩ : Shape).Idx) (k : D.contr.Idx) :
    (D.rhsIdx j k 1).val = (j 1).val := by
  have hb : (1 : Fin (⟨2, ![K, N]⟩ : Shape).rank) ∉ D.rhsBatch := by rw [h.rb]; exact List.not_mem_nil
  have hn : (1 : Fin (⟨2, ![K, N]⟩ : Shape).rank) ∈ D.rhsNonContracting := by rw [h.rn]; exact List.mem_singleton.mpr rfl
  have key : ∀ (a b : Nat) (ha : a < 2) (hb : b < 2), a = b → (j ⟨a, ha⟩).val = (j ⟨b, hb⟩).val :=
    fun a b ha hb e => by subst e; rfl
  unfold DotDims.rhsIdx
  rw [dif_neg hb, dif_pos hn]
  simp only [Fin.val_cast]
  exact key _ _ _ _ (by simp [h.lb, h.ln, h.rn])

/-- The contraction index is one coordinate below `K`. -/
def IsPlain.contrEquiv (h : IsPlain D) : D.contr.Idx ≃ Fin K :=
  contrEquiv1 D K h.rank_contr h.size_contr

/-- The two operands' indices at result entry `(p, q)` and contraction coordinate `k`. -/
theorem IsPlain.lhsIdx_eq (h : IsPlain D) (p : Fin M) (q : Fin N) (k : Fin K) :
    D.lhsIdx (ix2 p q) (h.contrEquiv.symm k) = ix2 p k := by
  funext a
  apply Fin.ext
  match a with
  | ⟨0, _⟩ => exact h.lhs_row (ix2 p q) _
  | ⟨1, _⟩ =>
    show (D.lhsIdx (ix2 p q) (h.contrEquiv.symm k) 1).val = k.val
    rw [D.lhsIdx_val_of_single h.lc]
    exact contrEquiv1_symm_val D K h.rank_contr h.size_contr k

theorem IsPlain.rhsIdx_eq (h : IsPlain D) (p : Fin M) (q : Fin N) (k : Fin K) :
    D.rhsIdx (ix2 p q) (h.contrEquiv.symm k) = ix2 k q := by
  funext a
  apply Fin.ext
  match a with
  | ⟨0, _⟩ =>
    show (D.rhsIdx (ix2 p q) (h.contrEquiv.symm k) 0).val = k.val
    rw [D.rhsIdx_val_of_single h.rc]
    exact contrEquiv1_symm_val D K h.rank_contr h.size_contr k
  | ⟨1, _⟩ => exact h.rhs_col (ix2 p q) _

/-- The product into an accumulator, read at entry `(p, q)`: the accumulator there plus the sum over the shared
    axis of the operands' products. -/
theorem matmul_apply (h : IsPlain D) {φ₁ φ₂ : FTy} (prec : Option ContractPrecision)
    (l : FVec Ideal ⟨2, ![M, K]⟩ φ₁) (r : FVec Ideal ⟨2, ![K, N]⟩ φ₂) (acc : FVec Ideal ⟨2, ![M, N]⟩ .f32)
    (p : Fin M) (q : Fin N) :
    FloatOps.matmul D prec l r acc (ix2 p q) = acc (ix2 p q) + ∑ k : Fin K, l (ix2 p k) * r (ix2 k q) := by
  rw [Ideal.matmul_apply, ← Equiv.sum_comp h.contrEquiv.symm]
  refine congrArg (acc (ix2 p q) + ·) (Finset.sum_congr rfl fun k _ => ?_)
  rw [h.lhsIdx_eq, h.rhsIdx_eq]

/-- Into the zero accumulator: the sum alone. -/
theorem matmul_zero_apply (h : IsPlain D) {φ₁ φ₂ : FTy} (prec : Option ContractPrecision)
    (l : FVec Ideal ⟨2, ![M, K]⟩ φ₁) (r : FVec Ideal ⟨2, ![K, N]⟩ φ₂) (p : Fin M) (q : Fin N) :
    FloatOps.matmul D prec l r (constant ⟨2, ![M, N]⟩ .f32 0x00000000#32) (ix2 p q)
      = ∑ k : Fin K, l (ix2 p k) * r (ix2 k q) := by
  rw [matmul_apply h]
  show Ideal.ofBits .f32 0x00000000#32 + _ = _
  rw [Ideal.ofBits_zero_f32, zero_add]

end Idealize.ShloMosaic.MatmulPlain

end
-- ==== Proof.LibPlainProduct.lean ====
/-
  The matrix product as ONE function of its two operands, and the two spellings a program gives it.

  `prod l r` is the `M × N` array whose entry `(p, q)` is `∑ k, l (p, k) · r (k, q)`, a sum over the shared axis of
  extent `K`, taken over the extended reals.  A `tpu.matmul` into the zero accumulator and the host's `dot_general`,
  each carrying the dimension numbers of a plain product (`IsPlain`), are both `prod` of their operands — whatever the
  operands' float formats, and for the host whatever its schedule key.  So a kernel that multiplies row blocks and a
  reference that multiplies the whole array meet at `prod`: row `p` of the product depends on row `p` of the left
  operand only.
-/
import proofs.«168287_j60765197304392_1_alg».proof.Proof.LibMatmulPlain

noncomputable section

namespace Idealize.ShloMosaic.MatmulPlain

open Idealize.ShloMosaic Idealize.ShloMosaic.ValueIdx
open scoped BigOperators

variable {M N K : Nat} {D : DotDims ⟨2, ![M, K]⟩ ⟨2, ![K, N]⟩ ⟨2, ![M, N]⟩}

/-- The product of an `M × K` and a `K × N` array: entry `j` is the sum over the shared axis of the products of row
    `j 0` of the left operand with column `j 1` of the right one. -/
def prod {φ₁ φ₂ : FTy} (l : FVec Ideal ⟨2, ![M, K]⟩ φ₁) (r : FVec Ideal ⟨2, ![K, N]⟩ φ₂) : FVec Ideal ⟨2, ![M, N]⟩ .f32 :=
  fun j => ∑ k : Fin K, l (ix2 (j 0) k) * r (ix2 k (j 1))

theorem prod_apply {φ₁ φ₂ : FTy} (l : FVec Ideal ⟨2, ![M, K]⟩ φ₁) (r : FVec Ideal ⟨2, ![K, N]⟩ φ₂) (p : Fin M) (q : Fin N) :
    prod l r (ix2 p q) = ∑ k : Fin K, l (ix2 p k) * r (ix2 k q) := rfl

/-- The host's `dot_general` with a plain product's dimension numbers, read at entry `(p, q)`. -/
theorem dotGeneral_apply (h : IsPlain D) {φ₁ φ₂ : FTy} (prec : Option ContractPrecision) (sched : HostSchedule)
    (l : FVec Ideal ⟨2, ![M, K]⟩ φ₁) (r : FVec Ideal ⟨2, ![K, N]⟩ φ₂) (p : Fin M) (q : Fin N) :
    FloatOps.dotGeneral D prec sched l r (ix2 p q) = ∑ k : Fin K, l (ix2 p k) * r (ix2 k q) := by
  rw [Ideal.dotGeneral_apply, ← Equiv.sum_comp h.contrEquiv.symm]
  refine Finset.sum_congr rfl fun k _ => ?_
  rw [h.lhsIdx_eq, h.rhsIdx_eq]

/-- A `tpu.matmul` into the zero accumulator is the product. -/
theorem matmul_zero_eq_prod (h : IsPlain D) {φ₁ φ₂ : FTy} (prec : Option ContractPrecision)
    (l : FVec Ideal ⟨2, ![M, K]⟩ φ₁) (r : FVec Ideal ⟨2, ![K, N]⟩ φ₂) :
    FloatOps.matmul D prec l r (constant ⟨2, ![M, N]⟩ .f32 0x00000000#32) = prod l r := by
  funext j
  obtain ⟨p, q, rfl⟩ : ∃ (p : Fin M) (q : Fin N), j = ix2 p q := ⟨j 0, j 1, eq_ix2 j⟩
  exact matmul_zero_apply h prec l r p q

/-- The host's `dot_general` is the product. -/
theorem dotGeneral_eq_prod (h : IsPlain D) {φ₁ φ₂ : FTy} (prec : Option ContractPrecision) (sched : HostSchedule)
    (l : FVec Ideal ⟨2, ![M, K]⟩ φ₁) (r : FVec Ideal ⟨2, ![K, N]⟩ φ₂) :
    FloatOps.dotGeneral D prec sched l r = prod l r := by
  funext j
  obtain ⟨p, q, rfl⟩ : ∃ (p : Fin M) (q : Fin N), j = ix2 p q := ⟨j 0, j 1, eq_ix2 j⟩
  exact dotGeneral_apply h prec sched l r p q

/-- Row `p` of the product is the product of row `p`: if two left operands agree on a row (here: a row of a block and
    the row of the whole array it was cut from), the products agree on that row. -/
theorem prod_row_congr {M' : Nat} {φ₁ φ₁' φ₂ : FTy} (l : FVec Ideal ⟨2, ![M, K]⟩ φ₁) (l' : FVec Ideal ⟨2, ![M', K]⟩ φ₁')
    (r : FVec Ideal ⟨2, ![K, N]⟩ φ₂) (p : Fin M) (p' : Fin M') (q : Fin N)
    (hrow : ∀ k : Fin K, l (ix2 p k) = l' (ix2 p' k)) :
    prod l r (ix2 p q) = prod l' r (ix2 p' q) := by
  rw [prod_apply, prod_apply]
  exact Finset.sum_congr rfl fun k _ => by rw [hrow k]

end Idealize.ShloMosaic.MatmulPlain

end
-- ==== Proof.Region0.lean ====
/-
  The first product, `x @ W1`, as the first region leaves it.

  The region walks 20 grid points.  At point `t` it reads rows `5000·t … 5000·t + 4999` of `x` (all 256 columns) and the
  whole of `W1`, multiplies them into a zero accumulator, and writes the `5000 × 128` result back as rows
  `5000·t … 5000·t + 4999` of the output.  Row `p` of a product depends on row `p` of the left operand only, so what point
  `t` writes back is exactly block `t` of the whole product `prod x W1`; the 20 blocks tile the 100000 rows; hence
  after the region the output array IS `prod x W1`, whatever it held before.
-/
import proofs.«168287_j60765197304392_1_alg».proof.Proof.Gen.KernelIdeal.Frame
import proofs.«168287_j60765197304392_1_alg».proof.Proof.LibPlainProduct
import Idealize.ShloMosaic.Lib.Pipeline.Value
import Idealize.ShloMosaic.Lib.ValueIdx

set_option maxRecDepth 16384

noncomputable section

namespace Cert.KernelIdeal.Region0

open Cert.KernelIdeal Cert.KernelIdeal.Gen
open Idealize.ShloMosaic Idealize.ShloMosaic.TcCoe Idealize.ShloMosaic.ValueIdx Idealize.ShloMosaic.MatmulPlain
open Idealize.SL.Sem
open Idealize.ShloMosaic.Pipeline (Dat)

-- the buffer contents the region is entered with: a parameter
variable (V : (c : Dev nD) → (b : Ref sig .tc) → Buf (Elt Ideal) ((c : Thread nD τ).loc b))

/-- The product of a 5000-row block of `x` with `W1`. -/
abbrev blockProd : FVec Ideal S5000x256 .f32 → FVec Ideal S256x128 .f32 → FVec Ideal S5000x128 .f32 :=
  prod (M := 5000) (K := 256) (N := 128) (φ₁ := .f32) (φ₂ := .f32)

/-- The product of the whole of `x` with `W1`. -/
abbrev wholeProd : FVec Ideal S100000x256 .f32 → FVec Ideal S256x128 .f32 → FVec Ideal S100000x128 .f32 :=
  prod (M := 100000) (K := 256) (N := 128) (φ₁ := .f32) (φ₂ := .f32)

theorem offsets_zero : (![0, 0] : Fin 2 → Nat) = fun _ => 0 := funext fun a => by fin_cases a <;> rfl

/-- The block product's dimension numbers are a plain product's. -/
theorem plain_block : IsPlain (M := 5000) (K := 256) (N := 128) dot_S5000x256_S256x128_S5000x128_1_0_0_1_n_n :=
  ⟨rfl, rfl, rfl, rfl, rfl, rfl⟩

/-- The body's stored value is the product of its two loaded blocks (rounding the operands to bf16 changes nothing
    over the extended reals). -/
theorem payload_eq (x0 : Vec Ideal S5000x256 .f32) (x1 : Vec Ideal S256x128 .f32) :
    k0_pay1 x0 x1 = blockProd x0 x1 := by
  unfold k0_pay1
  exact (matmul_zero_eq_prod plain_block none _ _).trans rfl

/-- One entry of a block's product is the whole product's entry on the same row, when the block's row is the whole
    array's row and the right operands agree on the column. -/
theorem entry_of_rows (X : FVec Ideal S100000x256 .f32) (W : FVec Ideal S256x128 .f32)
    (B : FVec Ideal S5000x256 .f32) (W' : FVec Ideal S256x128 .f32) (y : S5000x128.Idx) (i : S100000x128.Idx)
    (hB : ∀ k : Fin 256, B (ix2 (y 0) k) = X (ix2 (i 0) k))
    (hW : ∀ k : Fin 256, W' (ix2 k (y 1)) = W (ix2 k (i 1))) :
    blockProd B W' y = wholeProd X W i := by
  unfold blockProd wholeProd prod
  exact Finset.sum_congr rfl fun k _ => by rw [hB k, hW k]

/-- The printed index maps over the grid: the left operand's and the output's blocks move together down the rows,
    block `t` at point `t`; every other block index is 0. -/
theorem index_facts : ∀ t : Fin cfg0.N, win0_0.index t (0 : Fin 2) = win0_2.index t (0 : Fin 2)
    ∧ win0_0.index t (1 : Fin 2) = 0
    ∧ win0_1.index t (0 : Fin 2) = 0
    ∧ win0_1.index t (1 : Fin 2) = 0
    ∧ win0_2.index t (1 : Fin 2) = 0
    ∧ win0_2.index t (0 : Fin 2) ≤ 19 :=
  (by decide +kernel : ∀ t : Fin grid0.N, _)

/-- Every row block is some point's. -/
theorem index_onto : ∀ q : Fin 20, ∃ t : Fin cfg0.N, win0_2.index t = ![q.val, 0] :=
  (by decide +kernel : ∀ q : Fin 20, ∃ t : Fin grid0.N, win0_2.index t = ![q.val, 0])

/-- What point `t` writes back is block `t` of the whole product. -/
theorem flushed_eq (c : Dev nD) (t : Fin cfg0.N) :
    (dat0 V c).flushed 2 t = ((cfg0.win 2).blk t).view.read (Elt Ideal)
      (wholeProd (V c main_arg0) (V c main_arg2)) := by
  show (cfg0.win 2).cut (grid0.coords t) ((dat0 V c).after 2 t) = _
  rw [after0_2]
  unfold out0_2
  rw [View.canon_unit_zero offsets_zero]
  simp only [View.ld_unit_zero (S := S5000x256) offsets_zero, View.ld_unit_zero (S := S256x128) offsets_zero]
  rw [payload_eq]
  obtain ⟨e0, e1, e2, e3, e4, e5⟩ := index_facts t
  funext j
  show blockProd (iblk0 V c 0 t) (iblk0 V c 1 t) j
    = wholeProd (V c main_arg0) (V c main_arg2) (((cfg0.win 2).blk t).view.emb j)
  refine entry_of_rows (V c main_arg0) (V c main_arg2) (iblk0 V c 0 t) (iblk0 V c 1 t) j (((cfg0.win 2).blk t).view.emb j)
    (fun k => ?_) (fun k => ?_)
  · show V c main_arg0 (((cfg0.win 0).blk t).view.emb (ix2 (j 0) k))
      = V c main_arg0 (ix2 ((((cfg0.win 2).blk t).view.emb j) 0) k)
    refine congrArg (V c main_arg0) ?_
    funext a; apply Fin.ext
    match a with
    | ⟨0, _⟩ => show win0_0.index t (0 : Fin 2) * 5000 + 1 * (j 0).val = win0_2.index t (0 : Fin 2) * 5000 + 1 * (j 0).val; omega
    | ⟨1, _⟩ => show win0_0.index t (1 : Fin 2) * 256 + 1 * k.val = k.val; omega
  · show V c main_arg2 (((cfg0.win 1).blk t).view.emb (ix2 k (j 1)))
      = V c main_arg2 (ix2 k ((((cfg0.win 2).blk t).view.emb j) 1))
    refine congrArg (V c main_arg2) ?_
    funext a; apply Fin.ext
    match a with
    | ⟨0, _⟩ => show win0_1.index t (0 : Fin 2) * 256 + 1 * k.val = k.val; omega
    | ⟨1, _⟩ => show win0_1.index t (1 : Fin 2) * 128 + 1 * (j 1).val = win0_2.index t (1 : Fin 2) * 128 + 1 * (j 1).val; omega

/-- An index of the output array is in point `t`'s block iff each coordinate is in the block's range on its axis. -/
theorem mem_block (t : Fin cfg0.N) (i : S100000x128.Idx) :
    i ∈ ((cfg0.win 2).blk t).view.set ↔ ∀ a : Fin 2, win0_2.index t a * S5000x128.size a ≤ (i a).val
      ∧ (i a).val < win0_2.index t a * S5000x128.size a + S5000x128.size a := by
  show i ∈ ((View.whole main_v30).slice (win0_2.rect t)).set ↔ _
  rw [View.set_slice_whole, Rect.mem_set_unit]
  exact Iff.rfl

/-- The blocks tile the rows: row `r` is in the block of the point whose block index is `r / 5000`. -/
theorem covered (i : S100000x128.Idx) :
    ∃ t : Fin cfg0.N, (cfg0.win 2).flush t = true ∧ i ∈ ((cfg0.win 2).blk t).view.set := by
  have hi0 : (i 0).val < 100000 := (i 0).isLt
  have hi1 : (i 1).val < 128 := (i 1).isLt
  obtain ⟨t, ht⟩ := index_onto ⟨(i 0).val / 5000, by omega⟩
  have q0 : win0_2.index t (0 : Fin 2) = (i 0).val / 5000 := congrFun ht 0
  have q1 : win0_2.index t (1 : Fin 2) = 0 := congrFun ht 1
  refine ⟨t, flush0_2 t, ?_⟩
  rw [mem_block]
  intro a
  match a with
  | ⟨0, _⟩ => show win0_2.index t (0 : Fin 2) * 5000 ≤ (i 0).val ∧ (i 0).val < win0_2.index t (0 : Fin 2) * 5000 + 5000; omega
  | ⟨1, _⟩ => show win0_2.index t (1 : Fin 2) * 128 ≤ (i 1).val ∧ (i 1).val < win0_2.index t (1 : Fin 2) * 128 + 128; omega

/-- After the region its output array is the product of the arrays it was entered with. -/
theorem output_eq (c : Dev nD) :
    (dat0 V c).arrAt 2 cfg0.N = wholeProd (V c main_arg0) (V c main_arg2) :=
  (dat0 V c).arrAt_eq_of_cover 2 _ (fun t _ => flushed_eq V c t) covered

end Cert.KernelIdeal.Region0

end
-- ==== Proof.Region1.lean ====
/-
  The second product, `relu(h) @ W2`, as the second region leaves it.

  The region walks 10 grid points.  At point `t` it reads rows `10000·t … 10000·t + 9999` of the hidden layer `h` (all
  128 columns) and the whole of `W2` (one column), replaces every entry of the block by its maximum with `0`,
  multiplies into a zero accumulator, and writes the `10000 × 1` result back as the same rows of the output.  The
  maximum with `0` is taken entry by entry, so the block of `relu(h)` is `relu` of the block of `h`; row `p` of a product
  depends on row `p` of the left operand only; so what point `t` writes back is block `t` of the whole product
  `prod (max h 0) W2`.  The 10 blocks tile the 100000 rows, hence after the region the output array IS that product.
-/
import proofs.«168287_j60765197304392_1_alg».proof.Proof.Gen.KernelIdeal.Frame
import proofs.«168287_j60765197304392_1_alg».proof.Proof.LibPlainProduct
import Idealize.ShloMosaic.Lib.Pipeline.Value
import Idealize.ShloMosaic.Lib.ValueIdx

set_option maxRecDepth 16384

noncomputable section

namespace Cert.KernelIdeal.Region1

open Cert.KernelIdeal Cert.KernelIdeal.Gen
open Idealize.ShloMosaic Idealize.ShloMosaic.TcCoe Idealize.ShloMosaic.ValueIdx Idealize.ShloMosaic.MatmulPlain
open Idealize.SL.Sem
open Idealize.ShloMosaic.Pipeline (Dat)

-- the buffer contents the region is entered with: a parameter
variable (V : (c : Dev nD) → (b : Ref sig .tc) → Buf (Elt Ideal) ((c : Thread nD τ).loc b))

/-- The product of a 10000-row block with `W2`. -/
abbrev blockProd : FVec Ideal S10000x128 .f32 → FVec Ideal S128x1 .f32 → FVec Ideal S10000x1 .f32 :=
  prod (M := 10000) (K := 128) (N := 1) (φ₁ := .f32) (φ₂ := .f32)

/-- The product of a whole 100000-row array with `W2`. -/
abbrev wholeProd : FVec Ideal S100000x128 .f32 → FVec Ideal S128x1 .f32 → FVec Ideal S100000x1 .f32 :=
  prod (M := 100000) (K := 128) (N := 1) (φ₁ := .f32) (φ₂ := .f32)

theorem offsets_zero : (![0, 0] : Fin 2 → Nat) = fun _ => 0 := funext fun a => by fin_cases a <;> rfl

/-- The whole hidden layer's zero array, as the host spells it: the literal `0.0` broadcast. -/
abbrev zeros : FVec Ideal S100000x128 .f32 :=
  broadcastInDim S100000x128 ![] bcast_S_S100000x128 (constant (F := Ideal) S_ .f32 0x00000000#32)

/-- A block's zero array, as the body spells it: the scalar literal `0.0` splat. -/
abbrev blockZeros : FVec Ideal S10000x128 .f32 :=
  broadcast S10000x128 (Scalar.ofBits (F := Ideal) .f32 0x00000000#32)

/-- The block product's dimension numbers are a plain product's. -/
theorem plain_block : IsPlain (M := 10000) (K := 128) (N := 1) dot_S10000x128_S128x1_S10000x1_1_0_0_1_n_n :=
  ⟨rfl, rfl, rfl, rfl, rfl, rfl⟩

/-- The body's stored value is the product of `relu` of its first loaded block with its second (a cast to the same
    shape and the rounding of the operands to bf16 change nothing over the extended reals). -/
theorem payload_eq (x0 : Vec Ideal S10000x128 .f32) (x1 : Vec Ideal S128x1 .f32) :
    k1_pay1 x0 x1 = blockProd (maximumf x0 blockZeros) x1 := by
  unfold k1_pay1
  simp only [shapeCast_self]
  exact (matmul_zero_eq_prod plain_block none _ _).trans rfl

/-- One entry of a block's product is the whole product's entry on the same row, when the block's row is the whole
    array's row and the right operands agree on the column: `relu` is taken entry by entry. -/
theorem entry_of_rows (X : FVec Ideal S100000x128 .f32) (W : FVec Ideal S128x1 .f32)
    (B : FVec Ideal S10000x128 .f32) (W' : FVec Ideal S128x1 .f32) (y : S10000x1.Idx) (i : S100000x1.Idx)
    (hB : ∀ k : Fin 128, B (ix2 (y 0) k) = X (ix2 (i 0) k))
    (hW : ∀ k : Fin 128, W' (ix2 k (y 1)) = W (ix2 k (i 1))) :
    blockProd (maximumf B blockZeros) W' y
      = wholeProd (maximumf X zeros) W i := by
  unfold blockProd wholeProd prod
  refine Finset.sum_congr rfl fun k _ => ?_
  rw [maximumf_apply, maximumf_apply, hB k, hW k]
  rfl

/-- The printed index maps over the grid: the left operand's and the output's blocks move together down the rows,
    block `t` at point `t`; every other block index is 0. -/
theorem index_facts : ∀ t : Fin cfg1.N, win1_0.index t (0 : Fin 2) = win1_2.index t (0 : Fin 2)
    ∧ win1_0.index t (1 : Fin 2) = 0
    ∧ win1_1.index t (0 : Fin 2) = 0
    ∧ win1_1.index t (1 : Fin 2) = 0
    ∧ win1_2.index t (1 : Fin 2) = 0
    ∧ win1_2.index t (0 : Fin 2) ≤ 9 :=
  (by decide +kernel : ∀ t : Fin grid1.N, _)

/-- Every row block is some point's. -/
theorem index_onto : ∀ q : Fin 10, ∃ t : Fin cfg1.N, win1_2.index t = ![q.val, 0] :=
  (by decide +kernel : ∀ q : Fin 10, ∃ t : Fin grid1.N, win1_2.index t = ![q.val, 0])

/-- What point `t` writes back is block `t` of the whole product. -/
theorem flushed_eq (c : Dev nD) (t : Fin cfg1.N) :
    (dat1 V c).flushed 2 t = ((cfg1.win 2).blk t).view.read (Elt Ideal)
      (wholeProd (maximumf (V c main_v46) zeros) (V c main_arg4)) := by
  show (cfg1.win 2).cut (grid1.coords t) ((dat1 V c).after 2 t) = _
  rw [after1_2]
  unfold out1_2
  rw [View.canon_unit_zero offsets_zero]
  simp only [View.ld_unit_zero (S := S10000x128) offsets_zero, View.ld_unit_zero (S := S128x1) offsets_zero]
  rw [payload_eq]
  obtain ⟨e0, e1, e2, e3, e4, e5⟩ := index_facts t
  funext j
  show blockProd (maximumf (iblk1 V c 0 t) blockZeros) (iblk1 V c 1 t) j
    = wholeProd (maximumf (V c main_v46) zeros) (V c main_arg4) (((cfg1.win 2).blk t).view.emb j)
  refine entry_of_rows (V c main_v46) (V c main_arg4) (iblk1 V c 0 t) (iblk1 V c 1 t) j (((cfg1.win 2).blk t).view.emb j)
    (fun k => ?_) (fun k => ?_)
  · show V c main_v46 (((cfg1.win 0).blk t).view.emb (ix2 (j 0) k))
      = V c main_v46 (ix2 ((((cfg1.win 2).blk t).view.emb j) 0) k)
    refine congrArg (V c main_v46) ?_
    funext a; apply Fin.ext
    match a with
    | ⟨0, _⟩ => show win1_0.index t (0 : Fin 2) * 10000 + 1 * (j 0).val = win1_2.index t (0 : Fin 2) * 10000 + 1 * (j 0).val; omega
    | ⟨1, _⟩ => show win1_0.index t (1 : Fin 2) * 128 + 1 * k.val = k.val; omega
  · show V c main_arg4 (((cfg1.win 1).blk t).view.emb (ix2 k (j 1)))
      = V c main_arg4 (ix2 k ((((cfg1.win 2).blk t).view.emb j) 1))
    refine congrArg (V c main_arg4) ?_
    funext a; apply Fin.ext
    match a with
    | ⟨0, _⟩ => show win1_1.index t (0 : Fin 2) * 128 + 1 * k.val = k.val; omega
    | ⟨1, _⟩ => show win1_1.index t (1 : Fin 2) * 1 + 1 * (j 1).val = win1_2.index t (1 : Fin 2) * 1 + 1 * (j 1).val; omega

/-- An index of the output array is in point `t`'s block iff each coordinate is in the block's range on its axis. -/
theorem mem_block (t : Fin cfg1.N) (i : S100000x1.Idx) :
    i ∈ ((cfg1.win 2).blk t).view.set ↔ ∀ a : Fin 2, win1_2.index t a * S10000x1.size a ≤ (i a).val
      ∧ (i a).val < win1_2.index t a * S10000x1.size a + S10000x1.size a := by
  show i ∈ ((View.whole main_v47).slice (win1_2.rect t)).set ↔ _
  rw [View.set_slice_whole, Rect.mem_set_unit]
  exact Iff.rfl

/-- The blocks tile the rows: row `r` is in the block of the point whose block index is `r / 10000`. -/
theorem covered (i : S100000x1.Idx) :
    ∃ t : Fin cfg1.N, (cfg1.win 2).flush t = true ∧ i ∈ ((cfg1.win 2).blk t).view.set := by
  have hi0 : (i 0).val < 100000 := (i 0).isLt
  have hi1 : (i 1).val < 1 := (i 1).isLt
  obtain ⟨t, ht⟩ := index_onto ⟨(i 0).val / 10000, by omega⟩
  have q0 : win1_2.index t (0 : Fin 2) = (i 0).val / 10000 := congrFun ht 0
  have q1 : win1_2.index t (1 : Fin 2) = 0 := congrFun ht 1
  refine ⟨t, flush1_2 t, ?_⟩
  rw [mem_block]
  intro a
  match a with
  | ⟨0, _⟩ => show win1_2.index t (0 : Fin 2) * 10000 ≤ (i 0).val ∧ (i 0).val < win1_2.index t (0 : Fin 2) * 10000 + 10000; omega
  | ⟨1, _⟩ => show win1_2.index t (1 : Fin 2) * 1 ≤ (i 1).val ∧ (i 1).val < win1_2.index t (1 : Fin 2) * 1 + 1; omega

/-- After the region its output array is the product of `relu` of the hidden layer it was entered with and `W2`. -/
theorem output_eq (c : Dev nD) :
    (dat1 V c).arrAt 2 cfg1.N = wholeProd (maximumf (V c main_v46) zeros) (V c main_arg4) :=
  (dat1 V c).arrAt_eq_of_cover 2 _ (fun t _ => flushed_eq V c t) covered

end Cert.KernelIdeal.Region1

end
-- ==== Proof.KernelValue.lean ====
/-
  The idealized kernel's result as one term of its arguments.

  The run's last boundary contents, read at the result buffer, are unfolded segment by segment, back to the launch
  memory: the last host stretch is the output layer's aggregation of what the second region left; the second region
  left the product of `relu` of the hidden layer with `W2`; the hidden layer is the middle stretch's aggregation of
  what the first region left; the first region left `x @ W1`; and the edge lists and weights both aggregations use
  are what the first three stretches computed from the edge array, which no later segment touches.
-/
import proofs.«168287_j60765197304392_1_alg».proof.Proof.Gen.KernelIdeal.Frame
import proofs.«168287_j60765197304392_1_alg».proof.Proof.Chain
import proofs.«168287_j60765197304392_1_alg».proof.Proof.Region0
import proofs.«168287_j60765197304392_1_alg».proof.Proof.Region1
import Idealize.ShloMosaic.Lib.StableHlo.Run

set_option maxRecDepth 16384

noncomputable section

namespace Cert.KernelIdeal.KernelValue

open Cert.KernelIdeal Cert.KernelIdeal.Gen Cert.KernelIdeal.Gcn
open Idealize.ShloMosaic Idealize.ShloMosaic.TcCoe Idealize.ShloMosaic.StableHlo Idealize.ShloMosaic.MatmulPlain
open Idealize.SL.Sem

/-! ## The host stretches, from any contents -/

section Stretches

variable {F : FTy → Type} [FloatOps F] (U : Valuation τ sig (Elt F))

/-- After the first three stretches: the source list. -/
theorem pre_src : after hostOps0_2 (after hostOps0_1 (after hostOps0 U)) (Proc.devRef .tc main_v5)
    = srcOf (F := F) (U (Proc.devRef .tc main_arg1)) := by
  after_results_simp <;> rfl

/-- After the first three stretches: the destination list. -/
theorem pre_dst : after hostOps0_2 (after hostOps0_1 (after hostOps0 U)) (Proc.devRef .tc main_v6)
    = dstOf (F := F) (U (Proc.devRef .tc main_arg1)) := by
  after_results_simp <;> rfl

/-- After the first three stretches: the edge weights. -/
theorem pre_norm : after hostOps0_2 (after hostOps0_1 (after hostOps0 U)) (Proc.devRef .tc main_v29)
    = normOf (F := F) (srcOf (F := F) (U (Proc.devRef .tc main_arg1))) (dstOf (F := F) (U (Proc.devRef .tc main_arg1))) := by
  after_results_simp <;> rfl

/-- The first three stretches write no argument. -/
theorem pre_arg0 : after hostOps0_2 (after hostOps0_1 (after hostOps0 U)) (Proc.devRef .tc main_arg0) = U (Proc.devRef .tc main_arg0) := by
  after_results_simp <;> rfl
theorem pre_arg2 : after hostOps0_2 (after hostOps0_1 (after hostOps0 U)) (Proc.devRef .tc main_arg2) = U (Proc.devRef .tc main_arg2) := by
  after_results_simp <;> rfl
theorem pre_arg3 : after hostOps0_2 (after hostOps0_1 (after hostOps0 U)) (Proc.devRef .tc main_arg3) = U (Proc.devRef .tc main_arg3) := by
  after_results_simp <;> rfl
theorem pre_arg4 : after hostOps0_2 (after hostOps0_1 (after hostOps0 U)) (Proc.devRef .tc main_arg4) = U (Proc.devRef .tc main_arg4) := by
  after_results_simp <;> rfl
theorem pre_arg5 : after hostOps0_2 (after hostOps0_1 (after hostOps0 U)) (Proc.devRef .tc main_arg5) = U (Proc.devRef .tc main_arg5) := by
  after_results_simp <;> rfl

/-- The middle stretch: the hidden layer's aggregation of the first product. -/
theorem mid_hidden : after hostOps1 U (Proc.devRef .tc main_v46)
    = aggregate128 (F := F) (U (Proc.devRef .tc main_v30)) (U (Proc.devRef .tc main_v5)) (U (Proc.devRef .tc main_v6))
        (U (Proc.devRef .tc main_v29)) (U (Proc.devRef .tc main_arg3)) := by
  after_results_simp <;> rfl

/-- The middle stretch writes neither the edge lists, nor the weights, nor an argument. -/
theorem mid_src : after hostOps1 U (Proc.devRef .tc main_v5) = U (Proc.devRef .tc main_v5) := by after_results_simp <;> rfl
theorem mid_dst : after hostOps1 U (Proc.devRef .tc main_v6) = U (Proc.devRef .tc main_v6) := by after_results_simp <;> rfl
theorem mid_norm : after hostOps1 U (Proc.devRef .tc main_v29) = U (Proc.devRef .tc main_v29) := by after_results_simp <;> rfl
theorem mid_arg4 : after hostOps1 U (Proc.devRef .tc main_arg4) = U (Proc.devRef .tc main_arg4) := by after_results_simp <;> rfl
theorem mid_arg5 : after hostOps1 U (Proc.devRef .tc main_arg5) = U (Proc.devRef .tc main_arg5) := by after_results_simp <;> rfl

/-- The last stretch: the output layer's aggregation of the second product, its unit axis dropped. -/
theorem last_result : after hostOps2 U (Proc.devRef .tc main_v63)
    = aggregate1 (F := F) (U (Proc.devRef .tc main_v47)) (U (Proc.devRef .tc main_v5)) (U (Proc.devRef .tc main_v6))
        (U (Proc.devRef .tc main_v29)) (U (Proc.devRef .tc main_arg5)) := by
  after_results_simp <;> rfl

end Stretches

/-! ## The boundaries of the run, over the extended reals -/

variable (m : (ℓ : Loc nD τ sig) → Buf (Elt Ideal) ℓ) (ρ : Dev nD → PrngReg)

/-- The product of the whole of `x` with `W1`. -/
abbrev prod1 : FVec Ideal S100000x256 .f32 → FVec Ideal S256x128 .f32 → FVec Ideal S100000x128 .f32 :=
  prod (M := 100000) (K := 256) (N := 128) (φ₁ := .f32) (φ₂ := .f32)

/-- The product of a whole hidden-layer array with `W2`. -/
abbrev prod2 : FVec Ideal S100000x128 .f32 → FVec Ideal S128x1 .f32 → FVec Ideal S100000x1 .f32 :=
  prod (M := 100000) (K := 128) (N := 1) (φ₁ := .f32) (φ₂ := .f32)

/-- The hidden layer's zero array: the literal `0.0` broadcast. -/
abbrev zeros : FVec Ideal S100000x128 .f32 :=
  broadcastInDim S100000x128 ![] bcast_S_S100000x128 (constant (F := Ideal) S_ .f32 0x00000000#32)

/-- The network as one function of the six arguments: two graph convolutions with a `relu` between them. -/
def network (x : (⟨S100000x256, .f32⟩ : BufTy).Contents (Elt Ideal)) (e : (⟨S2x1600000, .i32⟩ : BufTy).Contents (Elt Ideal))
    (w1 : (⟨S256x128, .f32⟩ : BufTy).Contents (Elt Ideal)) (b1 : (⟨S128, .f32⟩ : BufTy).Contents (Elt Ideal))
    (w2 : (⟨S128x1, .f32⟩ : BufTy).Contents (Elt Ideal)) (b2 : (⟨S1, .f32⟩ : BufTy).Contents (Elt Ideal)) :
    (⟨S100000, .f32⟩ : BufTy).Contents (Elt Ideal) :=
  aggregate1 (F := Ideal)
    (prod2 (maximumf (aggregate128 (F := Ideal) (prod1 x w1) (srcOf (F := Ideal) e) (dstOf (F := Ideal) e)
        (normOf (F := Ideal) (srcOf (F := Ideal) e) (dstOf (F := Ideal) e)) b1) zeros) w2)
    (srcOf (F := Ideal) e) (dstOf (F := Ideal) e) (normOf (F := Ideal) (srcOf (F := Ideal) e) (dstOf (F := Ideal) e)) b2

/-! ### Entering the first region (`W3`) -/

theorem W3_src (c : Dev nD) : W3 m ρ c (Proc.devRef .tc main_v5) = srcOf (F := Ideal) (m ((c : Thread nD τ).loc main_arg1)) :=
  pre_src (W0 m ρ c)
theorem W3_dst (c : Dev nD) : W3 m ρ c (Proc.devRef .tc main_v6) = dstOf (F := Ideal) (m ((c : Thread nD τ).loc main_arg1)) :=
  pre_dst (W0 m ρ c)
theorem W3_norm (c : Dev nD) : W3 m ρ c (Proc.devRef .tc main_v29)
    = normOf (F := Ideal) (srcOf (F := Ideal) (m ((c : Thread nD τ).loc main_arg1))) (dstOf (F := Ideal) (m ((c : Thread nD τ).loc main_arg1))) :=
  pre_norm (W0 m ρ c)
theorem W3_arg0 (c : Dev nD) : W3 m ρ c (Proc.devRef .tc main_arg0) = m ((c : Thread nD τ).loc main_arg0) := pre_arg0 (W0 m ρ c)
theorem W3_arg2 (c : Dev nD) : W3 m ρ c (Proc.devRef .tc main_arg2) = m ((c : Thread nD τ).loc main_arg2) := pre_arg2 (W0 m ρ c)
theorem W3_arg3 (c : Dev nD) : W3 m ρ c (Proc.devRef .tc main_arg3) = m ((c : Thread nD τ).loc main_arg3) := pre_arg3 (W0 m ρ c)
theorem W3_arg4 (c : Dev nD) : W3 m ρ c (Proc.devRef .tc main_arg4) = m ((c : Thread nD τ).loc main_arg4) := pre_arg4 (W0 m ρ c)
theorem W3_arg5 (c : Dev nD) : W3 m ρ c (Proc.devRef .tc main_arg5) = m ((c : Thread nD τ).loc main_arg5) := pre_arg5 (W0 m ρ c)

/-! ### Leaving the first region (`W4`) -/

/-- The first region's output array is `x @ W1`. -/
theorem W4_product (c : Dev nD) : W4 m ρ c (Proc.devRef .tc main_v30)
    = prod1 (m ((c : Thread nD τ).loc main_arg0)) (m ((c : Thread nD τ).loc main_arg2)) := by
  refine (W4_arr m ρ c 2).trans ((Region0.output_eq (V3 m ρ) c).trans ?_)
  show prod1 (W3 m ρ c (Proc.devRef .tc main_arg0)) (W3 m ρ c (Proc.devRef .tc main_arg2)) = _
  rw [W3_arg0, W3_arg2]

theorem W4_src (c : Dev nD) : W4 m ρ c (Proc.devRef .tc main_v5) = srcOf (F := Ideal) (m ((c : Thread nD τ).loc main_arg1)) :=
  (W4_of_ne m ρ c main_v5 (by decide)).trans (W3_src m ρ c)
theorem W4_dst (c : Dev nD) : W4 m ρ c (Proc.devRef .tc main_v6) = dstOf (F := Ideal) (m ((c : Thread nD τ).loc main_arg1)) :=
  (W4_of_ne m ρ c main_v6 (by decide)).trans (W3_dst m ρ c)
theorem W4_norm (c : Dev nD) : W4 m ρ c (Proc.devRef .tc main_v29)
    = normOf (F := Ideal) (srcOf (F := Ideal) (m ((c : Thread nD τ).loc main_arg1))) (dstOf (F := Ideal) (m ((c : Thread nD τ).loc main_arg1))) :=
  (W4_of_ne m ρ c main_v29 (by decide)).trans (W3_norm m ρ c)
theorem W4_arg3 (c : Dev nD) : W4 m ρ c (Proc.devRef .tc main_arg3) = m ((c : Thread nD τ).loc main_arg3) :=
  (W4_of_ne m ρ c main_arg3 (by decide)).trans (W3_arg3 m ρ c)
theorem W4_arg4 (c : Dev nD) : W4 m ρ c (Proc.devRef .tc main_arg4) = m ((c : Thread nD τ).loc main_arg4) :=
  (W4_of_ne m ρ c main_arg4 (by decide)).trans (W3_arg4 m ρ c)
theorem W4_arg5 (c : Dev nD) : W4 m ρ c (Proc.devRef .tc main_arg5) = m ((c : Thread nD τ).loc main_arg5) :=
  (W4_of_ne m ρ c main_arg5 (by decide)).trans (W3_arg5 m ρ c)

/-! ### Entering the second region (`W5`) -/

/-- The hidden layer before its `relu`. -/
abbrev hidden (c : Dev nD) : (⟨S100000x128, .f32⟩ : BufTy).Contents (Elt Ideal) :=
  aggregate128 (F := Ideal) (prod1 (m ((c : Thread nD τ).loc main_arg0)) (m ((c : Thread nD τ).loc main_arg2)))
    (srcOf (F := Ideal) (m ((c : Thread nD τ).loc main_arg1))) (dstOf (F := Ideal) (m ((c : Thread nD τ).loc main_arg1)))
    (normOf (F := Ideal) (srcOf (F := Ideal) (m ((c : Thread nD τ).loc main_arg1))) (dstOf (F := Ideal) (m ((c : Thread nD τ).loc main_arg1))))
    (m ((c : Thread nD τ).loc main_arg3))

theorem W5_hidden (c : Dev nD) : W5 m ρ c (Proc.devRef .tc main_v46) = hidden m c := by
  refine (mid_hidden (W4 m ρ c)).trans ?_
  rw [W4_product, W4_src, W4_dst, W4_norm, W4_arg3]

theorem W5_src (c : Dev nD) : W5 m ρ c (Proc.devRef .tc main_v5) = srcOf (F := Ideal) (m ((c : Thread nD τ).loc main_arg1)) :=
  (mid_src (W4 m ρ c)).trans (W4_src m ρ c)
theorem W5_dst (c : Dev nD) : W5 m ρ c (Proc.devRef .tc main_v6) = dstOf (F := Ideal) (m ((c : Thread nD τ).loc main_arg1)) :=
  (mid_dst (W4 m ρ c)).trans (W4_dst m ρ c)
theorem W5_norm (c : Dev nD) : W5 m ρ c (Proc.devRef .tc main_v29)
    = normOf (F := Ideal) (srcOf (F := Ideal) (m ((c : Thread nD τ).loc main_arg1))) (dstOf (F := Ideal) (m ((c : Thread nD τ).loc main_arg1))) :=
  (mid_norm (W4 m ρ c)).trans (W4_norm m ρ c)
theorem W5_arg4 (c : Dev nD) : W5 m ρ c (Proc.devRef .tc main_arg4) = m ((c : Thread nD τ).loc main_arg4) :=
  (mid_arg4 (W4 m ρ c)).trans (W4_arg4 m ρ c)
theorem W5_arg5 (c : Dev nD) : W5 m ρ c (Proc.devRef .tc main_arg5) = m ((c : Thread nD τ).loc main_arg5) :=
  (mid_arg5 (W4 m ρ c)).trans (W4_arg5 m ρ c)

/-! ### Leaving the second region (`W6`) -/

/-- The second region's output array is `relu(hidden) @ W2`. -/
theorem W6_product (c : Dev nD) : W6 m ρ c (Proc.devRef .tc main_v47)
    = prod2 (maximumf (hidden m c) zeros) (m ((c : Thread nD τ).loc main_arg4)) := by
  refine (W6_arr m ρ c 2).trans ((Region1.output_eq (V5 m ρ) c).trans ?_)
  show prod2 (maximumf (W5 m ρ c (Proc.devRef .tc main_v46)) zeros) (W5 m ρ c (Proc.devRef .tc main_arg4)) = _
  rw [W5_hidden, W5_arg4]

theorem W6_src (c : Dev nD) : W6 m ρ c (Proc.devRef .tc main_v5) = srcOf (F := Ideal) (m ((c : Thread nD τ).loc main_arg1)) :=
  (W6_of_ne m ρ c main_v5 (by decide)).trans (W5_src m ρ c)
theorem W6_dst (c : Dev nD) : W6 m ρ c (Proc.devRef .tc main_v6) = dstOf (F := Ideal) (m ((c : Thread nD τ).loc main_arg1)) :=
  (W6_of_ne m ρ c main_v6 (by decide)).trans (W5_dst m ρ c)
theorem W6_norm (c : Dev nD) : W6 m ρ c (Proc.devRef .tc main_v29)
    = normOf (F := Ideal) (srcOf (F := Ideal) (m ((c : Thread nD τ).loc main_arg1))) (dstOf (F := Ideal) (m ((c : Thread nD τ).loc main_arg1))) :=
  (W6_of_ne m ρ c main_v29 (by decide)).trans (W5_norm m ρ c)
theorem W6_arg5 (c : Dev nD) : W6 m ρ c (Proc.devRef .tc main_arg5) = m ((c : Thread nD τ).loc main_arg5) :=
  (W6_of_ne m ρ c main_arg5 (by decide)).trans (W5_arg5 m ρ c)

/-! ### The return (`W7`) -/

/-- The kernel's result is the network of its arguments. -/
theorem W7_result (c : Dev nD) : W7 m ρ c (Proc.devRef .tc main_v63)
    = network (m ((c : Thread nD τ).loc main_arg0)) (m ((c : Thread nD τ).loc main_arg1)) (m ((c : Thread nD τ).loc main_arg2))
        (m ((c : Thread nD τ).loc main_arg3)) (m ((c : Thread nD τ).loc main_arg4)) (m ((c : Thread nD τ).loc main_arg5)) := by
  refine (last_result (W6 m ρ c)).trans ?_
  rw [W6_product, W6_src, W6_dst, W6_norm, W6_arg5]
  rfl

end Cert.KernelIdeal.KernelValue

end
-- ==== Proof.RefValue.lean ====
/-
  The reference's result as the same term of its arguments.

  The reference computes the two graph convolutions with the host's `dot_general` for each product, and computes the
  edge lists, the degrees and the weights once per layer; the kernel's program computes them once.  Written as a term
  of the arguments the second computation is the first one again, so the reference's result is the network with
  `dot_general` in the place of each product — and over the extended reals a `dot_general` with a plain product's
  dimension numbers IS the product.
-/
import proofs.«168287_j60765197304392_1_alg».proof.Proof.RefRun
import proofs.«168287_j60765197304392_1_alg».proof.Proof.KernelValue

set_option maxRecDepth 16384

noncomputable section

namespace Cert.ReferenceIdeal.RefValue

open Cert.ReferenceIdeal
open Cert.KernelIdeal.Gcn
open Idealize.ShloMosaic Idealize.ShloMosaic.TcCoe Idealize.ShloMosaic.MatmulPlain
open Idealize.SL.Sem

/-- The network over any two product functions. -/
def networkOf
    (P1 : FVec Ideal S100000x256 .f32 → FVec Ideal S256x128 .f32 → FVec Ideal S100000x128 .f32)
    (P2 : FVec Ideal S100000x128 .f32 → FVec Ideal S128x1 .f32 → FVec Ideal S100000x1 .f32)
    (x : (⟨S100000x256, .f32⟩ : BufTy).Contents (Elt Ideal)) (e : (⟨S2x1600000, .i32⟩ : BufTy).Contents (Elt Ideal))
    (w1 : (⟨S256x128, .f32⟩ : BufTy).Contents (Elt Ideal)) (b1 : (⟨S128, .f32⟩ : BufTy).Contents (Elt Ideal))
    (w2 : (⟨S128x1, .f32⟩ : BufTy).Contents (Elt Ideal)) (b2 : (⟨S1, .f32⟩ : BufTy).Contents (Elt Ideal)) :
    (⟨S100000, .f32⟩ : BufTy).Contents (Elt Ideal) :=
  aggregate1 (F := Ideal)
    (P2 (maximumf (aggregate128 (F := Ideal) (P1 x w1) (srcOf (F := Ideal) e) (dstOf (F := Ideal) e)
        (normOf (F := Ideal) (srcOf (F := Ideal) e) (dstOf (F := Ideal) e)) b1) Cert.KernelIdeal.KernelValue.zeros) w2)
    (srcOf (F := Ideal) e) (dstOf (F := Ideal) e) (normOf (F := Ideal) (srcOf (F := Ideal) e) (dstOf (F := Ideal) e)) b2

/-- With the two products it is the kernel's network. -/
theorem networkOf_prod :
    networkOf Cert.KernelIdeal.KernelValue.prod1 Cert.KernelIdeal.KernelValue.prod2 = Cert.KernelIdeal.KernelValue.network := rfl

/-- The reference's two `dot_general`s carry a plain product's dimension numbers. -/
theorem plain1 : IsPlain (M := 100000) (K := 256) (N := 128) dot_S100000x256_S256x128_S100000x128_1_0_0_1_n_n :=
  ⟨rfl, rfl, rfl, rfl, rfl, rfl⟩
theorem plain2 : IsPlain (M := 100000) (K := 128) (N := 1) dot_S100000x128_S128x1_S100000x1_1_0_0_1_n_n :=
  ⟨rfl, rfl, rfl, rfl, rfl, rfl⟩

/-- So each is the product. -/
theorem dot1_eq : (fun (l : FVec Ideal S100000x256 .f32) (r : FVec Ideal S256x128 .f32) =>
      Host.dotGeneral dot_S100000x256_S256x128_S100000x128_1_0_0_1_n_n none l r) = Cert.KernelIdeal.KernelValue.prod1 :=
  funext fun l => funext fun r => dotGeneral_eq_prod plain1 none .single l r
theorem dot2_eq : (fun (l : FVec Ideal S100000x128 .f32) (r : FVec Ideal S128x1 .f32) =>
      Host.dotGeneral dot_S100000x128_S128x1_S100000x1_1_0_0_1_n_n none l r) = Cert.KernelIdeal.KernelValue.prod2 :=
  funext fun l => funext fun r => dotGeneral_eq_prod plain2 none .single l r

variable (m : (ℓ : Loc nD τ sig) → Buf (Elt Ideal) ℓ)

/-- The reference run's composed term is the network over its two `dot_general`s: the same operations in the same
    order, the per-layer recomputation of the edge lists and weights being the same term twice. -/
theorem res_eq_networkOf (c : Dev nD) : ValueP.res_main_v90 (F := Ideal) m c
    = networkOf (fun l r => Host.dotGeneral dot_S100000x256_S256x128_S100000x128_1_0_0_1_n_n none l r)
        (fun l r => Host.dotGeneral dot_S100000x128_S128x1_S100000x1_1_0_0_1_n_n none l r)
        (m ((c.tc : Thread nD τ).loc main_arg0)) (m ((c.tc : Thread nD τ).loc main_arg1)) (m ((c.tc : Thread nD τ).loc main_arg2))
        (m ((c.tc : Thread nD τ).loc main_arg3)) (m ((c.tc : Thread nD τ).loc main_arg4)) (m ((c.tc : Thread nD τ).loc main_arg5)) := by
  unfold ValueP.res_main_v90
  rfl

/-- The reference's result is the network of its arguments. -/
theorem res_eq (c : Dev nD) : ValueP.res_main_v90 (F := Ideal) m c
    = Cert.KernelIdeal.KernelValue.network
        (m ((c.tc : Thread nD τ).loc main_arg0)) (m ((c.tc : Thread nD τ).loc main_arg1)) (m ((c.tc : Thread nD τ).loc main_arg2))
        (m ((c.tc : Thread nD τ).loc main_arg3)) (m ((c.tc : Thread nD τ).loc main_arg4)) (m ((c.tc : Thread nD τ).loc main_arg5)) := by
  rw [res_eq_networkOf, dot1_eq, dot2_eq, networkOf_prod]

end Cert.ReferenceIdeal.RefValue

end
-- ==== Proof.lean ====
/-
  A two-layer graph convolution network on 100000 nodes and 1600000 edges,
  `out = Â · relu(Â · (x W1) + b1) W2 + b2` with `Â = D^{-1/2} (A + I) D^{-1/2}`, computed two ways.

  The kernel's program runs each dense product (`x @ W1`: 100000×256 by 256×128; `relu(h) @ W2`: 100000×128 by
  128×1, the `relu` taken inside the kernel) as a pipelined region over row blocks, the operands rounded to bf16 and
  accumulated in f32, and leaves the edge normalization and the gather / scatter-add aggregation to host operations,
  computing the edge lists and weights once.  The reference does everything on the host, each product one
  `dot_general`, and recomputes the edge lists and weights for the second layer.

  Over the extended reals the two agree for every input: a change of float format is the identity; a product into a
  zero accumulator and a `dot_general` are both the plain sum over the shared axis; row `p` of a product depends on row
  `p` of the left operand only and `relu` acts entry by entry, so the row blocks the regions write back are the blocks
  of the whole products and tile them; and the host operations around the products are the same functions on both
  sides, applied to equal values.  No algebraic law that could fail at an infinity is used, so the precondition is
  never opened.  The ideal pass rewrote nothing, so `preserves` is trivial; the kernels' frames are the generated ones
  and the reference's frame is its run with the result dropped.
-/
import proofs.«168287_j60765197304392_1_alg».proof.Defs
import proofs.«168287_j60765197304392_1_alg».proof.Proof.Gen.Kernel
import proofs.«168287_j60765197304392_1_alg».proof.Proof.Gen.Kernel.Frame
import proofs.«168287_j60765197304392_1_alg».proof.Proof.Gen.KernelIdeal
import proofs.«168287_j60765197304392_1_alg».proof.Proof.Gen.KernelIdeal.Frame
import proofs.«168287_j60765197304392_1_alg».proof.Proof.Gen.ReferenceIdeal
import proofs.«168287_j60765197304392_1_alg».proof.Proof.Gen.Pre_finite_inputs
import proofs.«168287_j60765197304392_1_alg».proof.Proof.KernelRun
import proofs.«168287_j60765197304392_1_alg».proof.Proof.KernelValue
import proofs.«168287_j60765197304392_1_alg».proof.Proof.RefRun
import proofs.«168287_j60765197304392_1_alg».proof.Proof.RefValue
import Idealize.ShloMosaic.Adequacy
import Idealize.ShloMosaic.Init

noncomputable section

namespace Cert.Proof

open Idealize.ShloMosaic Idealize.ShloMosaic.TcCoe Idealize.SL.Sem

theorem frame_kernel : Cert.frame_Kernel := fun m ρ _ => Cert.Kernel.Gen.frame m ρ

theorem frame_kernelIdeal : Cert.frame_KernelIdeal := fun m ρ _ => Cert.KernelIdeal.Gen.frame m ρ

/-- The reference's frame: its run, the result dropped. -/
theorem frame_reference : Cert.frame_ReferenceIdeal := fun m ρ _ =>
  (θ_run Cert.ReferenceIdeal.defs _ _).mono (fun _ h c => (h c).2) (Cert.ReferenceIdeal.ValueP.run (F := Ideal) m ρ)

/-- The ideal pass rewrote no operation. -/
theorem preserves : Cert.preserves_Kernel_KernelIdeal := trivial

/-- Both programs end with the network of their (agreeing) arguments in the result buffer. -/
theorem algebraic : Cert.algebraic_KernelIdeal_ReferenceIdeal := by
  intro m ρ m' ρ' _ hagree
  refine ⟨fun c => Cert.KernelIdeal.KernelValue.network
      (m ((c.tc : Thread Cert.KernelIdeal.nD Cert.KernelIdeal.τ).loc Cert.KernelIdeal.main_arg0))
      (m ((c.tc : Thread Cert.KernelIdeal.nD Cert.KernelIdeal.τ).loc Cert.KernelIdeal.main_arg1))
      (m ((c.tc : Thread Cert.KernelIdeal.nD Cert.KernelIdeal.τ).loc Cert.KernelIdeal.main_arg2))
      (m ((c.tc : Thread Cert.KernelIdeal.nD Cert.KernelIdeal.τ).loc Cert.KernelIdeal.main_arg3))
      (m ((c.tc : Thread Cert.KernelIdeal.nD Cert.KernelIdeal.τ).loc Cert.KernelIdeal.main_arg4))
      (m ((c.tc : Thread Cert.KernelIdeal.nD Cert.KernelIdeal.τ).loc Cert.KernelIdeal.main_arg5)), ?_, ?_⟩
  · exact (θ_run Cert.KernelIdeal.defs _ _).mono
      (fun _ h c => ⟨(h c).1.trans (Cert.KernelIdeal.KernelValue.W7_result m ρ c), (h c).2⟩)
      (Cert.KernelIdeal.RunValue.run (F := Ideal) m ρ)
  · refine (θ_run Cert.ReferenceIdeal.defs _ _).mono (fun _ h c => ⟨(h c).1.trans ?_, (h c).2⟩)
      (Cert.ReferenceIdeal.ValueP.run (F := Ideal) m' ρ')
    rw [Cert.ReferenceIdeal.RefValue.res_eq m' c, (hagree c).1, (hagree c).2.1, (hagree c).2.2.1, (hagree c).2.2.2.1,
      (hagree c).2.2.2.2.1, (hagree c).2.2.2.2.2]

theorem claim : Cert.Claim :=
  ⟨Cert.Kernel.Gen.facts, Cert.KernelIdeal.Gen.facts, Cert.ReferenceIdeal.Gen.facts, Cert.Pre_finite_inputs.Gen.facts,
    frame_kernel, frame_kernelIdeal, frame_reference, preserves, algebraic⟩

end Cert.Proof

end
